-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x400000 : Shape := ⟨2, ![2, 400000]⟩
abbrev S400000x32 : Shape := ⟨2, ![400000, 32]⟩
abbrev S160x128 : Shape := ⟨2, ![160, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S400000x32 : S_.BroadcastsInDim S400000x32 (![] : Fin 0 → Fin S400000x32.rank)
  reducesTo_S400000x32_S_d0_1 : S400000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg15 : FVec F S128x64 .f32) (main_arg16 : FVec F S64 .f32) (main_arg17 : FVec F S64 .f32) (main_arg18 : FVec F S64 .f32) (main_v63 : IVec S_ 1) (main_v67 : IVec S_ 1) : IVec S_ 1 :=
  let main_v68 : IVec S_ 1 := andi main_v63 main_v67
  let main_v69 : FVec F S128x64 .f32 := Host.absf main_arg15
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S128x64 .f32) (main_arg16 : FVec F S64 .f32) (main_arg17 : FVec F S64 .f32) (main_arg18 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S64 .f32) (main_arg9 : FVec F S64 .f32) (main_arg10 : FVec F S64 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_arg17 : FVec F S64 .f32) (main_arg18 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128x64 .f32) (main_arg8 : FVec F S64 .f32) (main_arg9 : FVec F S64 .f32) (main_arg10 : FVec F S64 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_arg17 : FVec F S64 .f32) (main_arg18 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x64 .f32) (main_arg1 : IVec S2x400000 32) (main_arg2 : FVec F S400000x32 .f32) (main_arg3 : FVec F S160x128 .f32) (main_arg4 : FVec F S128 .f32) (main_arg5 : FVec F S128x128 .f32) (main_arg6 : FVec F S128 .f32) (main_arg7 : FVec F S128x64 .f32) (main_arg8 : FVec F S64 .f32) (main_arg9 : FVec F S64 .f32) (main_arg10 : FVec F S64 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_arg17 : FVec F S64 .f32) (main_arg18 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S400000x32 .f32 := Host.absf main_arg2
  let main_cst_0 : FVec F S_ .f32 := constant S_ .f32 0x7F800000#32
  let main_v5 : FVec F S400000x32 .f32 := broadcastInDim S400000x32 ![] bcast_S_S400000x32 main_cst_0
  let main_v6 : IVec S400000x32 1 := cmpf .olt main_v4 main_v5
  let main_c_1 : IVec S_ 1 := constantI S_ 1 1#1
  let main_v7 : IVec S_ 1 := (fun x v => Host.reduce IntOp.andi x v reducesTo_S400000x32_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S2x400000 : Shape := ⟨2, ![2, 400000]⟩
abbrev S400000x32 : Shape := ⟨2, ![400000, 32]⟩
abbrev S160x128 : Shape := ⟨2, ![160, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S64x128 : Shape := ⟨2, ![64, 128]⟩
abbrev S32x128 : Shape := ⟨2, ![32, 128]⟩
abbrev S4000x64 : Shape := ⟨2, ![4000, 64]⟩
abbrev S4000x32 : Shape := ⟨2, ![4000, 32]⟩
abbrev S4000x128 : Shape := ⟨2, ![4000, 128]⟩
abbrev S1x128 : Shape := ⟨2, ![1, 128]⟩
abbrev S1x64 : Shape := ⟨2, ![1, 64]⟩
abbrev S4000 : Shape := ⟨1, ![4000]⟩
abbrev S4000x1 : Shape := ⟨2, ![4000, 1]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 54
  | .vmem => 33
  | .smem => 0
  | _ => 0

abbrev bufTy : (tb : Table) → Fin (tcTables nBuf tb) → BufTy
  | .hbm, ⟨0, _⟩ => ⟨S50000x64, .f32⟩
  | .hbm, ⟨1, _⟩ => ⟨S2x400000, .i32⟩
  | .hbm, ⟨2, _⟩ => ⟨S400000x32, .f32⟩
  | .hbm, ⟨3, _⟩ => ⟨S160x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S1x400000, .i32⟩
  | .hbm, ⟨20, _⟩ => ⟨S400000, .i32⟩
  | .hbm, ⟨21, _⟩ => ⟨S1x400000, .i32⟩
  | .hbm, ⟨22, _⟩ => ⟨S400000, .i32⟩
  | .hbm, ⟨23, _⟩ => ⟨S50000x64, .bf16⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x64, .bf16⟩
  | .hbm, ⟨33, _⟩ => ⟨S_, .i32⟩
  | .hbm, ⟨34, _⟩ => ⟨S400000, .i32⟩
  | .hbm, ⟨35, _⟩ => ⟨S400000, .i1⟩
  | .hbm, ⟨36, _⟩ => ⟨S_, .i32⟩
  | .hbm, ⟨37, _⟩ => ⟨S400000, .i32⟩
  | .hbm, ⟨38, _⟩ => ⟨S400000, .i32⟩
  | .hbm, ⟨39, _⟩ => ⟨S400000, .i32⟩
  | .hbm, ⟨40, _⟩ => ⟨S400000x1, .i32⟩
  | .hbm, ⟨41, _⟩ => ⟨S400000x64, .bf16⟩
  | .hbm, ⟨42, _⟩ => ⟨S400000x32, .bf16⟩
  | .hbm, ⟨43, _⟩ => ⟨S64x128, .f32⟩
  | .hbm, ⟨44, _⟩ => ⟨S64x128, .f32⟩
  | .hbm, ⟨45, _⟩ => ⟨S32x128, .f32⟩
  | .hbm, ⟨46, _⟩ => ⟨S400000x64, .f32⟩
  | .hbm, ⟨47, _⟩ => ⟨S_, .f32⟩
  | .hbm, ⟨48, _⟩ => ⟨S50000x64, .f32⟩
  | .hbm, ⟨49, _⟩ => ⟨S400000x1, .i32⟩
  | .hbm, ⟨50, _⟩ => ⟨S50000x64, .f32⟩
  | .hbm, ⟨51, _⟩ => ⟨S64x128, .f32⟩
  | .hbm, ⟨52, _⟩ => ⟨S64x128, .f32⟩
  | .hbm, ⟨53, _⟩ => ⟨S50000x64, .f32⟩
  | .local _ .vmem, ⟨0, _⟩ => ⟨S4000x64, .bf16⟩
  | .local _ .vmem, ⟨1, _⟩ => ⟨S4000x64, .bf16⟩
  | .local _ .vmem, ⟨2, _⟩ => ⟨S4000x64, .bf16⟩
  | .local _ .vmem, ⟨3, _⟩ => ⟨S4000x64, .bf16⟩
  | .local _ .vmem, ⟨4, _⟩ => ⟨S4000x32, .bf16⟩
  | .local _ .vmem, ⟨5, _⟩ => ⟨S4000x32, .bf16⟩
  | .local _ .vmem, ⟨6, _⟩ => ⟨S64x128, .f32⟩
  | .local _ .vmem, ⟨7, _⟩ => ⟨S64x128, .f32⟩
  | .local _ .vmem, ⟨8, _⟩ => ⟨S32x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S4000x64, .f32⟩
  | .local _ .vmem, ⟨17, _⟩ => ⟨S4000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x128, .f32⟩
  | .local _ .vmem, ⟨23, _⟩ => ⟨S64x128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S128x64, .f32⟩
  | .local _ .vmem, ⟨28, _⟩ => ⟨S64, .f32⟩
  | .local _ .vmem, ⟨29, _⟩ => ⟨S64, .f32⟩
  | .local _ .vmem, ⟨30, _⟩ => ⟨S64, .f32⟩
  | .local _ .vmem, ⟨31, _⟩ => ⟨S5000x64, .f32⟩
  | .local _ .vmem, ⟨32, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg11_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem11_1 : DmaSem sig := 32

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bitsLt_bf16_f32 : FTy.bits .bf16 < FTy.bits .f32
  bcast_S_S400000 : S_.BroadcastsInDim S400000 (![] : Fin 0 → Fin S400000.rank)
  bcast_S400000_S400000x1_0 : S400000.BroadcastsInDim S400000x1 (![0] : Fin 1 → Fin S400000x1.rank)
  slices_S160x128_S64x128_0_0 : S160x128.Slices ![0, 0] S64x128
  slices_S160x128_S64x128_64_0 : S160x128.Slices ![64, 0] S64x128
  slices_S160x128_S32x128_128_0 : S160x128.Slices ![128, 0] S32x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  bcast_S_S50000x64 : S_.BroadcastsInDim S50000x64 (![] : Fin 0 → Fin S50000x64.rank)
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x128_S5000x128 : S1x128.Broadcasts S5000x128
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S50000x64_S400000x1_S400000x64_1_0_n_n_0_1_164_wf : GatherDims.WF S50000x64 S400000x1 S400000x64 [1] [0] [] [0] [] 1 ![1, 64]
  dot_S4000x64_S64x128_S4000x128_1_0_0_1_n_n_wf : DotDims.WF S4000x64 S64x128 S4000x128 [1] [0] [0] [1] [] []
  dot_S4000x32_S32x128_S4000x128_1_0_0_1_n_n_wf : DotDims.WF S4000x32 S32x128 S4000x128 [1] [0] [0] [1] [] []
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  scatter_S50000x64_S400000x1_S400000x64_1_0_0_1_wf : ScatterDims.WF S50000x64 S400000x1 S400000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S400000x64.size a
  hwx0_0 : ∀ i : grid0.Coords, EltTy.bits .bf16 = 32 ∨ (Rect.block (s := S400000x64) S4000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S400000x64.size a
  hwx0_1 : ∀ i : grid0.Coords, EltTy.bits .bf16 = 32 ∨ (Rect.block (s := S400000x64) S4000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S400000x32.size a
  hwx0_2 : ∀ i : grid0.Coords, EltTy.bits .bf16 = 32 ∨ (Rect.block (s := S400000x32) S4000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x64.size a ≤ S400000x64.size a
  hwx0_13 : ∀ i : grid0.Coords, EltTy.bits .f32 = 32 ∨ (Rect.block (s := S400000x64) S4000x64.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S50000x64.size a
  hwx1_11 : ∀ i : grid1.Coords, EltTy.bits .f32 = 32 ∨ (Rect.block (s := S50000x64) S5000x64.size (cc1_transform_11 i) (hinb1_11 i)).WholeWords (EltTy.packing .f32)

variable [Facts₀]

def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v11) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v23) S4000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg18) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v29) S5000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x400000 : Shape := ⟨2, ![2, 400000]⟩
abbrev S400000x32 : Shape := ⟨2, ![400000, 32]⟩
abbrev S160x128 : Shape := ⟨2, ![160, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S400000x160 : Shape := ⟨2, ![400000, 160]⟩
abbrev S400000x128 : Shape := ⟨2, ![400000, 128]⟩
abbrev S1x128 : Shape := ⟨2, ![1, 128]⟩
abbrev S1x64 : Shape := ⟨2, ![1, 64]⟩
abbrev S50000x128 : Shape := ⟨2, ![50000, 128]⟩
abbrev S50000 : Shape := ⟨1, ![50000]⟩
abbrev S50000x1 : Shape := ⟨2, ![50000, 1]⟩

abbrev nBuf : Space → Nat
  | .hbm => 142
  | .vmem => 0
  | .smem => 0
  | _ => 0

abbrev hbmTy0_0 (i : Nat) : BufTy := match i % 128 with
  | 0 => ⟨S50000x64, .f32⟩
  | 1 => ⟨S2x400000, .i32⟩
  | 2 => ⟨S400000x32, .f32⟩
  | 3 => ⟨S160x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64, .f32⟩
  | 10 => ⟨S64, .f32⟩
  | 11 => ⟨S128x128, .f32⟩
  | 12 => ⟨S128, .f32⟩
  | 13 => ⟨S128x128, .f32⟩
  | 14 => ⟨S128, .f32⟩
  | 15 => ⟨S128x64, .f32⟩
  | 16 => ⟨S64, .f32⟩
  | 17 => ⟨S64, .f32⟩
  | 18 => ⟨S64, .f32⟩
  | 19 => ⟨S1x400000, .i32⟩
  | 20 => ⟨S400000, .i32⟩
  | 21 => ⟨S1x400000, .i32⟩
  | 22 => ⟨S400000, .i32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x64, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000x64, .f32⟩
  | 41 => ⟨S400000x160, .f32⟩
  | 42 => ⟨S400000x128, .f32⟩
  | 43 => ⟨S1x128, .f32⟩
  | 44 => ⟨S400000x128, .f32⟩
  | 45 => ⟨S400000x128, .f32⟩
  | 46 => ⟨S_, .f32⟩
  | 47 => ⟨S400000x128, .f32⟩
  | 48 => ⟨S400000x128, .f32⟩
  | 49 => ⟨S400000x128, .f32⟩
  | 50 => ⟨S1x128, .f32⟩
  | 51 => ⟨S400000x128, .f32⟩
  | 52 => ⟨S400000x128, .f32⟩
  | 53 => ⟨S_, .f32⟩
  | 54 => ⟨S400000x128, .f32⟩
  | 55 => ⟨S400000x128, .f32⟩
  | 56 => ⟨S400000x64, .f32⟩
  | 57 => ⟨S1x64, .f32⟩
  | 58 => ⟨S400000x64, .f32⟩
  | 59 => ⟨S400000x64, .f32⟩
  | 60 => ⟨S_, .f32⟩
  | 61 => ⟨S400000, .f32⟩
  | 62 => ⟨S400000x1, .f32⟩
  | 63 => ⟨S_, .f32⟩
  | 64 => ⟨S400000x1, .f32⟩
  | 65 => ⟨S400000x1, .f32⟩
  | 66 => ⟨S400000x64, .f32⟩
  | 67 => ⟨S400000x64, .f32⟩
  | 68 => ⟨S400000x64, .f32⟩
  | 69 => ⟨S_, .f32⟩
  | 70 => ⟨S400000, .f32⟩
  | 71 => ⟨S400000x1, .f32⟩
  | 72 => ⟨S_, .f32⟩
  | 73 => ⟨S400000x1, .f32⟩
  | 74 => ⟨S400000x1, .f32⟩
  | 75 => ⟨S400000x64, .f32⟩
  | 76 => ⟨S400000x64, .f32⟩
  | 77 => ⟨S_, .f32⟩
  | 78 => ⟨S400000x1, .f32⟩
  | 79 => ⟨S400000x1, .f32⟩
  | 80 => ⟨S400000x1, .f32⟩
  | 81 => ⟨S400000x64, .f32⟩
  | 82 => ⟨S400000x64, .f32⟩
  | 83 => ⟨S1x64, .f32⟩
  | 84 => ⟨S400000x64, .f32⟩
  | 85 => ⟨S400000x64, .f32⟩
  | 86 => ⟨S1x64, .f32⟩
  | 87 => ⟨S400000x64, .f32⟩
  | 88 => ⟨S400000x64, .f32⟩
  | 89 => ⟨S_, .f32⟩
  | 90 => ⟨S50000x64, .f32⟩
  | 91 => ⟨S400000x1, .i32⟩
  | 92 => ⟨S50000x64, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x64, .f32⟩
  | 109 => ⟨S1x64, .f32⟩
  | 110 => ⟨S50000x64, .f32⟩
  | 111 => ⟨S50000x64, .f32⟩
  | 112 => ⟨S_, .f32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S50000x64, .f32⟩
  | 119 => ⟨S50000x64, .f32⟩
  | 120 => ⟨S50000x64, .f32⟩
  | 121 => ⟨S_, .f32⟩
  | 122 => ⟨S50000, .f32⟩
  | 123 => ⟨S50000x1, .f32⟩
  | 124 => ⟨S_, .f32⟩
  | 125 => ⟨S50000x1, .f32⟩
  | 126 => ⟨S50000x1, .f32⟩
  | 127 => ⟨S50000x64, .f32⟩
  | _ => ⟨S50000x64, .f32⟩

abbrev hbmTy0_1 (i : Nat) : BufTy := match i % 128 with
  | 0 => ⟨S50000x64, .f32⟩
  | 1 => ⟨S_, .f32⟩
  | 2 => ⟨S50000x1, .f32⟩
  | 3 => ⟨S50000x1, .f32⟩
  | 4 => ⟨S50000x1, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_cst : Ref sig .tc := ⟨.hbm, 53, rfl⟩
abbrev main_call1_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call3_cst : Ref sig .tc := ⟨.hbm, 105, rfl⟩
abbrev main_call3_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_8 : Ref sig .tc := ⟨.hbm, 112, rfl⟩
abbrev main_v75 : Ref sig .tc := ⟨.hbm, 113, rfl⟩
abbrev main_v76 : Ref sig .tc := ⟨.hbm, 114, rfl⟩
abbrev main_cst_9 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_10 : Ref sig .tc := ⟨.hbm, 121, rfl⟩
abbrev main_v82 : Ref sig .tc := ⟨.hbm, 122, rfl⟩
abbrev main_v83 : Ref sig .tc := ⟨.hbm, 123, rfl⟩
abbrev main_cst_11 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_12 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x64_S400000x32_S400000x160_d1 : Shape.Concatenates [S400000x64, S400000x64, S400000x32] S400000x160 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  reducesTo_S400000x64_S400000_d1 : S400000x64.ReducesTo [1] S400000
  h_S_ : 0 < S_.numel
  bcast_S_S400000x1 : S_.BroadcastsInDim S400000x1 (![] : Fin 0 → Fin S400000x1.rank)
  bcast_S400000x1_S400000x64_0_1 : S400000x1.BroadcastsInDim S400000x64 (![0, 1] : Fin 2 → Fin S400000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S50000x64_S400000x1_S400000x64_1_0_n_n_0_1_164_wf : GatherDims.WF S50000x64 S400000x1 S400000x64 [1] [0] [] [0] [] 1 ![1, 64]
  dot_S400000x160_S160x128_S400000x128_1_0_0_1_n_n_wf : DotDims.WF S400000x160 S160x128 S400000x128 [1] [0] [0] [1] [] []
  dot_S400000x128_S128x128_S400000x128_1_0_0_1_n_n_wf : DotDims.WF S400000x128 S128x128 S400000x128 [1] [0] [0] [1] [] []
  dot_S400000x128_S128x64_S400000x64_1_0_0_1_n_n_wf : DotDims.WF S400000x128 S128x64 S400000x64 [1] [0] [0] [1] [] []
  scatter_S50000x64_S400000x1_S400000x64_1_0_0_1_wf : ScatterDims.WF S50000x64 S400000x1 S400000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S400000x160_S160x128_S400000x128_1_0_0_1_n_n : DotDims S400000x160 S160x128 S400000x128 where
  lhsContracting := [1]
  rhsContracting := [0]
  lhsNonContracting := [0]
  rhsNonContracting := [1]
  lhsBatch := []
  rhsBatch := []
  wf := dot_S400000x160_S160x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«176863_j74174085202606_2_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.LibTileSoftmax.lean ====
/-
  Row tiles through a row-wise softmax, and the host's spelling of the same columns.

  With `IsTile r0 hr x X` (the T × C array x is rows [r0, r0 + T) of the M × C array X):
  * the maximum along each row of a tile from a starting value, kept as a T × 1 column, is the tile of the whole
    array's column of row maxima (`rowMax`, the fold of `max` over the row from that value) — the companion of the
    row sums kept as a column;
  * a difference and an exponential, entry by entry, keep tiles.
  On the whole array's side the host writes a column of row sums (or maxima) as a reduce over the second axis followed
  by a broadcast of the length-M vector along axis 0 into M × 1: that IS the column `rowSum` (or `rowMax`), whatever the
  initial value's rank-0 spelling, and a maximum taken once more with the starting value changes nothing.
-/
import proofs.«176863_j74174085202606_2_alg».proof.Proof.LibTileMore
import proofs.«176863_j74174085202606_2_alg».proof.Proof.LibRowOps

noncomputable section

namespace Cert.Tile

open Idealize.ShloMosaic Idealize.ShloMosaic.ValueIdx

/-- The maxima along the rows of an M × C array, each the fold of `max` over the row from `b`, kept as an M × 1 column. -/
def rowMax {M C : Nat} (b : EReal) (X : (⟨2, ![M, C]⟩ : Shape).Idx → EReal) : (⟨2, ![M, 1]⟩ : Shape).Idx → EReal :=
  fun i => (Finset.univ : Finset (Fin C)).fold max b (fun l => X (ix2 (n0 := M) (n1 := C) (i 0) l))

/-- Row a of the column of row maxima is the fold of `max` over row a. -/
theorem rowMax_apply {M C : Nat} (b : EReal) (X : (⟨2, ![M, C]⟩ : Shape).Idx → EReal) (a : Fin M) (q : Fin 1) :
    rowMax b X (ix2 a q) = (Finset.univ : Finset (Fin C)).fold max b (fun l => X (ix2 a l)) := rfl

variable {T M : Nat} {r0 : Nat} {hr : r0 + T ≤ M}

/-- The maximum along each row of a tile, kept as a T × 1 column, is the tile of the whole array's row maxima kept as
    an M × 1 column: row r0 + p of X is row p of x, entry by entry, and both folds start from the accumulator's value. -/
theorem laneMax {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.maximumf.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .maximumf [1] ⟨1, ![T]⟩ x acc h hφ hacc) hc)
      (rowMax (Ideal.ofBits .f32 acc) X) := by
  intro p q
  rw [RowOps.shapeCast_a_a1_apply _ hc p q, RowOps.rowMax_apply x acc h hφ hacc p, rowMax_apply]
  exact congrArg (fun f => Finset.fold max (Ideal.ofBits .f32 acc) f (Finset.univ : Finset (Fin C))) (funext fun k => hx p k)

section Pointwise
variable {C : Nat} {φ : FTy} {x y : (⟨2, ![T, C]⟩ : Shape).Idx → EReal} {X Y : (⟨2, ![M, C]⟩ : Shape).Idx → EReal}

/-- A kernel's vector difference, at the ideal values, subtracts entry by entry. -/
theorem vSub (hx : IsTile r0 hr x X) (hy : IsTile r0 hr y Y) :
    IsTile r0 hr (subf (F := Ideal) (φ := φ) x y) (fun i => X i - Y i) :=
  map₂ (fun a b => a - b) hx hy

/-- A kernel's vector exponential, at the ideal values, is the exponential entry by entry. -/
theorem vExp (hx : IsTile r0 hr x X) :
    IsTile r0 hr (exp (F := Ideal) (φ := φ) x) (fun i => Ideal.exp (X i)) :=
  map Ideal.exp hx

/-- A kernel's product with a splat of one value multiplies every entry by it. -/
theorem vScale (v : EReal) (hx : IsTile r0 hr x X) :
    IsTile r0 hr (mulf (F := Ideal) (φ := φ) x (broadcast ⟨2, ![T, C]⟩ v)) (fun i => X i * v) :=
  map (fun a => a * v) hx

end Pointwise

/-- A tile is a tile of anything the whole array equals. -/
theorem IsTile.congr {C : Nat} {x : (⟨2, ![T, C]⟩ : Shape).Idx → EReal} {X X' : (⟨2, ![M, C]⟩ : Shape).Idx → EReal}
    (hx : IsTile r0 hr x X) (e : X = X') : IsTile r0 hr x X' := e ▸ hx

/-! ## The host's spelling of the two columns -/

/-- A length-M vector broadcast along axis 0 into an M × 1 column reads, at (a, q), the vector at a. -/
theorem colOfVec_apply {M : Nat} (v : (⟨1, ![M]⟩ : Shape).Idx → EReal)
    (g : (⟨1, ![M]⟩ : Shape).BroadcastsInDim ⟨2, ![M, 1]⟩ ![0]) (a : Fin M) (q : Fin 1) :
    broadcastInDim ⟨2, ![M, 1]⟩ ![0] g v (ix2 a q) = v (ix1 a) := by
  refine broadcastInDim_apply _ g v (ix2 a q) (ix1 a) fun ax => ?_
  match ax with
  | ⟨0, _⟩ =>
    show a.val = if M = 1 then 0 else a.val
    split
    · have := a.isLt; omega
    · rfl

/-- The reduced index `a` of an M × C array with the coordinate `k` of the second axis put back is (a, k). -/
theorem lift_row2 {M C : Nat} (h : (⟨2, ![M, C]⟩ : Shape).Reduces [1] (⟨1, ![M]⟩ : Shape)) (a : Fin M)
    (k : Fin ((⟨2, ![M, C]⟩ : Shape).size 1)) : h.lift (ix1 a) k = ix2 a (⟨k.val, k.isLt⟩ : Fin C) := by
  funext c; apply Fin.ext
  fin_cases c <;> rfl

/-- The host's sum over the second axis from the initial value 0, kept as a column, is the column of row sums. -/
theorem hostRowSumCol {M C : Nat} {u : Shape} (X : FVec Ideal ⟨2, ![M, C]⟩ .f32) (init : u.Idx → Ideal .f32)
    (h' : (⟨2, ![M, C]⟩ : Shape).ReducesTo [1] ⟨1, ![M]⟩) (h : (⟨2, ![M, C]⟩ : Shape).Reduces [1] ⟨1, ![M]⟩) (hu : 0 < u.numel)
    (hinit : init (Shape.Idx.first hu) = 0)
    (g : (⟨1, ![M]⟩ : Shape).BroadcastsInDim ⟨2, ![M, 1]⟩ ![0]) :
    broadcastInDim ⟨2, ![M, 1]⟩ ![0] g (Host.reduceAdd X init h' hu) = rowSum X := by
  funext i
  obtain ⟨a, q, rfl⟩ : ∃ (a : Fin M) (q : Fin 1), i = ix2 a q := ⟨i 0, i 1, eq_ix2 i⟩
  rw [colOfVec_apply, rowSum_apply]
  show Ideal.hostReduceAdd h' X (init (Shape.Idx.first hu)) (ix1 a) = _
  rw [Ideal.hostReduceAdd_single h' h, hinit, zero_add]
  exact Finset.sum_congr rfl fun k _ => congrArg X (lift_row2 h a k)

/-- The host's maximum over the second axis from the initial value b, taken once more with b and kept as a column, is
    the column of row maxima from b. -/
theorem hostRowMaxCol {M C : Nat} {u : Shape} (X : FVec Ideal ⟨2, ![M, C]⟩ .f32) (init : u.Idx → Ideal .f32) (b : EReal)
    (h' : (⟨2, ![M, C]⟩ : Shape).ReducesTo [1] ⟨1, ![M]⟩) (h : (⟨2, ![M, C]⟩ : Shape).Reduces [1] ⟨1, ![M]⟩) (hu : 0 < u.numel)
    (hinit : init (Shape.Idx.first hu) = b) (w : FVec Ideal ⟨1, ![M]⟩ .f32) (hw : ∀ a, w a = b)
    (g : (⟨1, ![M]⟩ : Shape).BroadcastsInDim ⟨2, ![M, 1]⟩ ![0]) :
    broadcastInDim ⟨2, ![M, 1]⟩ ![0] g (maximumf (F := Ideal) w (Host.reduce FloatOps.maximumf X init h' hu)) = rowMax b X := by
  funext i
  obtain ⟨a, q, rfl⟩ : ∃ (a : Fin M) (q : Fin 1), i = ix2 a q := ⟨i 0, i 1, eq_ix2 i⟩
  rw [colOfVec_apply, rowMax_apply]
  show max (w (ix1 a)) (Host.reduce FloatOps.maximumf X init h' hu (ix1 a)) = _
  rw [hw, Host.reduce_eq_fold_single FloatOps.maximumf X init h' h hu (ix1 a), hinit]
  have e : (X ∘ h.lift (ix1 a)) = fun k => X (ix2 a (⟨k.val, k.isLt⟩ : Fin C)) := funext fun k => congrArg X (lift_row2 h a k)
  rw [e]
  exact RowOps.max_fold_max _ b _

end Cert.Tile

end
-- ==== Proof.LibHostLayers.lean ====
/-
  Row-wise layers of a dense network on whole M-row arrays of extended reals, written with the host's operations: a
  bias or scale vector repeated down the rows, a column repeated across the columns, the sum and the maximum of each
  row kept as a column (a reduce over the second axis followed by a broadcast into a column), a dense layer X · W + b,
  the mean over a row's features, a layer normalisation, a maximum with zero, the row-wise softmax, a row's Euclidean
  norm, a row divided by the larger of its norm and a tiny constant, and a row with its component along another row
  removed (one Gram–Schmidt step). Constants are broadcasts of rank-0 constants given by their f32 patterns. The side
  conditions of all these operations hold at every extent and are proved here once, so the definitions serve any
  batch size and feature count; a straight line of host operations computing the same values does so in the same words.
-/
import proofs.«176863_j74174085202606_2_alg».proof.Proof.LibTileMore

noncomputable section

namespace Cert.Spec

open Idealize.ShloMosaic Idealize.ShloMosaic.ValueIdx Cert.Tile

/-- An M × C array of extended reals (the ideal reading of an f32 array). -/
abbrev Mat (M C : Nat) : Type := FVec Ideal ⟨2, ![M, C]⟩ .f32
/-- A length-C vector of extended reals. -/
abbrev Vec1 (C : Nat) : Type := FVec Ideal ⟨1, ![C]⟩ .f32
/-- An M × K × C array of extended reals. -/
abbrev Cube (M K C : Nat) : Type := FVec Ideal ⟨3, ![M, K, C]⟩ .f32

/-! ## Side conditions, at every extent -/

theorem redTo (M C : Nat) : (⟨2, ![M, C]⟩ : Shape).ReducesTo [1] ⟨1, ![M]⟩ :=
  ⟨rfl, fun b => by match b with | ⟨0, _⟩ => rfl⟩

theorem red (M C : Nat) : (⟨2, ![M, C]⟩ : Shape).Reduces [1] ⟨1, ![M]⟩ :=
  ⟨rfl, Nat.one_pos, fun b => by match b with | ⟨0, _⟩ => rfl⟩

theorem numel0 : 0 < (⟨0, ![]⟩ : Shape).numel := by decide

/-- A length-C vector broadcasts along axis 1 into a 1 × C row. -/
theorem bidVecRow (C : Nat) : (⟨1, ![C]⟩ : Shape).BroadcastsInDim ⟨2, ![1, C]⟩ ![1] :=
  ⟨fun a b _ => Subsingleton.elim a b, fun a => by match a with | ⟨0, _⟩ => exact Or.inr rfl⟩

/-- A length-M vector broadcasts along axis 0 into an M × 1 column. -/
theorem bidVecCol (M : Nat) : (⟨1, ![M]⟩ : Shape).BroadcastsInDim ⟨2, ![M, 1]⟩ ![0] :=
  ⟨fun a b _ => Subsingleton.elim a b, fun a => by match a with | ⟨0, _⟩ => exact Or.inr rfl⟩

/-- A scalar broadcasts to a length-M vector. -/
theorem bidScalarVec (M : Nat) : (⟨0, ![]⟩ : Shape).BroadcastsInDim ⟨1, ![M]⟩ ![] :=
  ⟨fun a => a.elim0, fun a => a.elim0⟩

theorem inj02 : Function.Injective (![0, 2] : Fin 2 → Fin 3) := by decide
theorem inj012 : Function.Injective (![0, 1, 2] : Fin 3 → Fin 3) := by decide

/-- An M × C array broadcasts along axes (0, 2) into M × 1 × C. -/
theorem bidMid (M C : Nat) : (⟨2, ![M, C]⟩ : Shape).BroadcastsInDim ⟨3, ![M, 1, C]⟩ ![0, 2] :=
  ⟨inj02, fun a => by match a with | ⟨0, _⟩ => exact Or.inr rfl | ⟨1, _⟩ => exact Or.inr rfl⟩

/-- An M × 1 × C array broadcasts along (0, 1, 2) into M × K × C. -/
theorem bidMidRep (M K C : Nat) : (⟨3, ![M, 1, C]⟩ : Shape).BroadcastsInDim ⟨3, ![M, K, C]⟩ ![0, 1, 2] :=
  ⟨inj012, fun a => by match a with | ⟨0, _⟩ => exact Or.inr rfl | ⟨1, _⟩ => exact Or.inl rfl | ⟨2, _⟩ => exact Or.inr rfl⟩

variable {M : Nat}

/-! ## The building blocks, in the host's words -/

/-- The rank-0 constant of a 32-bit pattern. -/
def lit (b : BitVec 32) : FVec Ideal ⟨0, ![]⟩ .f32 := constant (F := Ideal) ⟨0, ![]⟩ .f32 b

/-- One value over an M × C array. -/
def splat (M C : Nat) (b : BitVec 32) : Mat M C := broadcastInDim ⟨2, ![M, C]⟩ ![] (bidScalar M C) (lit b)

/-- A length-C vector as a row, repeated down M rows. -/
def rows (M : Nat) {C : Nat} (b : Vec1 C) : Mat M C :=
  broadcastInDim ⟨2, ![M, C]⟩ ![0, 1] (bidRow M C) (broadcastInDim ⟨2, ![1, C]⟩ ![1] (bidVecRow C) b)

/-- An M × 1 column repeated across C columns. -/
def across {M : Nat} (C : Nat) (v : Mat M 1) : Mat M C := broadcastInDim ⟨2, ![M, C]⟩ ![0, 1] (bidCol M C) v

/-- The sum of each row, kept as an M × 1 column. -/
def sumCol {C : Nat} (X : Mat M C) : Mat M 1 :=
  broadcastInDim ⟨2, ![M, 1]⟩ ![0] (bidVecCol M)
    (Host.reduceAdd (F := Ideal) (axes := [1]) X (lit 0x00000000#32) (redTo M C) numel0)

/-- The maximum of each row from −∞, kept as an M × 1 column. -/
def maxCol {C : Nat} (X : Mat M C) : Mat M 1 :=
  broadcastInDim ⟨2, ![M, 1]⟩ ![0] (bidVecCol M)
    (maximumf (F := Ideal) (broadcastInDim ⟨1, ![M]⟩ ![] (bidScalarVec M) (lit 0xFF800000#32))
      (Host.reduce (axes := [1]) FloatOps.maximumf X (lit 0xFF800000#32) (redTo M C) numel0))

/-- X · W + b, the bias repeated down the rows. -/
def dense {K N : Nat} (X : Mat M K) (W : Mat K N) (b : Vec1 N) : Mat M N :=
  addf (Host.dotGeneral (F := Ideal) (DotDims.plain M K N) none X W) (rows M b)

/-- The mean of each row (the row sum divided by the count n, given as its f32 pattern), as a column. -/
def meanCol {C : Nat} (n : BitVec 32) (X : Mat M C) : Mat M 1 := Host.divf (sumCol X) (splat M 1 n)

/-- Each row with its mean removed. -/
def center {C : Nat} (n : BitVec 32) (X : Mat M C) : Mat M C := subf X (across C (meanCol n X))

/-- Layer normalisation over the features: (x − mean) · rsqrt(var + ε) · g + b, ε the f32 nearest 10⁻⁵. -/
def lnorm {C : Nat} (n : BitVec 32) (X : Mat M C) (g be : Vec1 C) : Mat M C :=
  addf (mulf (mulf (center n X)
      (across C (Host.rsqrt (addf (meanCol n (mulf (center n X) (center n X))) (splat M 1 0x3727C5AC#32)))))
    (rows M g)) (rows M be)

/-- The maximum with zero, entry by entry. -/
def relu {C : Nat} (X : Mat M C) : Mat M C := maximumf X (splat M C 0x00000000#32)

/-- exp (x − row maximum). -/
def expShift {C : Nat} (X : Mat M C) : Mat M C := Host.exp (subf X (across C (maxCol X)))

/-- The row-wise softmax. -/
def softmax {C : Nat} (X : Mat M C) : Mat M C := Host.divf (expShift X) (across C (sumCol (expShift X)))

/-- The Euclidean norm of each row, as a column. -/
def normCol {C : Nat} (v : Mat M C) : Mat M 1 := Host.sqrt (sumCol (mulf v v))

/-- Each row divided by the larger of its norm and the f32 nearest 10⁻¹². -/
def unit {C : Nat} (v : Mat M C) : Mat M C :=
  Host.divf v (across C (maximumf (normCol v) (splat M 1 0x2B8CBCCC#32)))

/-- v with its component along u removed, row by row: v − ⟨v, u⟩ u. -/
def strip {C : Nat} (v u : Mat M C) : Mat M C := subf v (mulf (across C (sumCol (mulf v u))) u)

/-- An M × C array as M × 1 × C. -/
def mid {C : Nat} (u : Mat M C) : Cube M 1 C := broadcastInDim ⟨3, ![M, 1, C]⟩ ![0, 2] (bidMid M C) u

end Cert.Spec

end
-- ==== Proof.LibTileLayers.lean ====
/-
  The network's layers on a tile of T rows, in a kernel's vector operations, against the same layers on the whole
  M-row arrays in the host's operations (LibHostLayers.lean). A tile x of an array X (rows [r0, r0 + T) of X) stays a tile
  through every layer, because every operation of such a network works row by row: a product with a weight matrix, a
  bias added to every row, the mean and the variance over a row's features, the row maximum and the row sum of the
  softmax, the inner product of two rows and a row's norm in the orthogonalisation. Each statement below says: if the
  operands are tiles of whole arrays, the kernel's expression on the tiles is the tile of the host's expression on the
  whole arrays.
-/
import proofs.«176863_j74174085202606_2_alg».proof.Proof.LibTileSoftmax
import proofs.«176863_j74174085202606_2_alg».proof.Proof.LibHostLayers

noncomputable section

namespace Cert.KSpec

open Idealize.ShloMosaic Idealize.ShloMosaic.ValueIdx Cert.Tile Cert.Spec

/-! ## Side conditions of the kernel's layout operations, at every extent -/

theorem scCol (T : Nat) : (⟨1, ![T]⟩ : Shape).ShapeCasts ⟨2, ![T, 1]⟩ := by
  show Shape.numel _ = Shape.numel _
  simp [Shape.numel, Fin.prod_univ_succ]

theorem scSelf (s : Shape) : s.ShapeCasts s := rfl

theorem bcCol (T C : Nat) : (⟨2, ![T, 1]⟩ : Shape).Broadcasts ⟨2, ![T, C]⟩ :=
  ⟨le_refl _, fun a => by
    match a with
    | ⟨0, _⟩ => exact Or.inr fun _ => rfl
    | ⟨1, _⟩ => exact Or.inl rfl⟩

theorem bcRow (T C : Nat) : (⟨2, ![1, C]⟩ : Shape).Broadcasts ⟨2, ![T, C]⟩ :=
  ⟨le_refl _, fun a => by
    match a with
    | ⟨0, _⟩ => exact Or.inl rfl
    | ⟨1, _⟩ => exact Or.inr fun _ => rfl⟩

/-- A tile of T rows and C columns. -/
abbrev Tl (T C : Nat) : Type := FVec Ideal ⟨2, ![T, C]⟩ .f32

variable {T : Nat}

/-! ## The layers on a tile, in the kernel's words -/

/-- The sum of each row of the tile, kept as a column. -/
def kSumCol {C : Nat} (x : Tl T C) : Tl T 1 :=
  shapeCast ⟨2, ![T, 1]⟩ (multiReduction (F := Ideal) .add [1] ⟨1, ![T]⟩ x 0x00000000#32 (red T C) (.inl rfl) rfl) (scCol T)

/-- The maximum of each row of the tile from −∞, kept as a column. -/
def kMaxCol {C : Nat} (x : Tl T C) : Tl T 1 :=
  shapeCast ⟨2, ![T, 1]⟩ (multiReduction (F := Ideal) .maximumf [1] ⟨1, ![T]⟩ x 0xFF800000#32 (red T C) (.inl rfl) rfl) (scCol T)

/-- One f32 value over the tile. -/
def kSplat (T C : Nat) (b : BitVec 32) : Tl T C := broadcast ⟨2, ![T, C]⟩ (Scalar.ofBits (F := Ideal) .f32 b)

/-- A column repeated across C columns. -/
def kAcross (C : Nat) (v : Tl T 1) : Tl T C := broadcastTo ⟨2, ![T, C]⟩ v (bcCol T C)

/-- A 1 × C row (passed through a cast to its own shape) repeated down the tile's rows. -/
def kRows (T : Nat) {C : Nat} (r : Tl 1 C) : Tl T C :=
  broadcastTo ⟨2, ![T, C]⟩ (shapeCast ⟨2, ![1, C]⟩ r (scSelf _)) (bcRow T C)

def kMeanCol {C : Nat} (n : BitVec 32) (x : Tl T C) : Tl T 1 := divf (kSumCol x) (kSplat T 1 n)

def kCenter {C : Nat} (n : BitVec 32) (x : Tl T C) : Tl T C := subf x (kAcross C (kMeanCol n x))

def kLnorm {C : Nat} (n : BitVec 32) (x : Tl T C) (g be : Tl 1 C) : Tl T C :=
  addf (mulf (mulf (kCenter n x)
      (kAcross C (rsqrt (addf (kMeanCol n (mulf (kCenter n x) (kCenter n x))) (kSplat T 1 0x3727C5AC#32)))))
    (kRows T g)) (kRows T be)

def kRelu {C : Nat} (x : Tl T C) : Tl T C := maximumf x (kSplat T C 0x00000000#32)

/-- x − its row maximum. -/
def kShift {C : Nat} (x : Tl T C) : Tl T C := subf x (kAcross C (kMaxCol x))

/-- exp s divided by its row sum. -/
def kNormExp {C : Nat} (s : Tl T C) : Tl T C := divf (exp s) (kAcross C (kSumCol (exp s)))

/-- A row sum of squares, as a column, to a unit vector: v / max (sqrt ss) tiny. -/
def kUnitOf {C : Nat} (v : Tl T C) (ss : Tl T 1) : Tl T C :=
  divf v (kAcross C (maximumf (sqrt ss) (kSplat T 1 0x2B8CBCCC#32)))

def kUnit {C : Nat} (v : Tl T C) : Tl T C := kUnitOf v (kSumCol (mulf v v))

def kStrip {C : Nat} (v u : Tl T C) : Tl T C := subf v (mulf (kAcross C (kSumCol (mulf v u))) u)

/-! ## Each layer keeps tiles -/

variable {M : Nat} {r0 : Nat} {hr : r0 + T ≤ M}

theorem lit_zero : lit 0x00000000#32 (Shape.Idx.first numel0) = 0 := Ideal.ofBits_zero_f32

theorem sumCol_eq {C : Nat} (X : Mat M C) : sumCol X = rowSum X :=
  hostRowSumCol X (lit 0x00000000#32) (redTo M C) (red M C) numel0 lit_zero (bidVecCol M)

theorem maxCol_eq {C : Nat} (X : Mat M C) : maxCol X = rowMax (Ideal.ofBits .f32 0xFF800000#32) X :=
  hostRowMaxCol X (lit 0xFF800000#32) (Ideal.ofBits .f32 0xFF800000#32) (redTo M C) (red M C) numel0 rfl _
    (fun a => broadcastInDim_apply _ (bidScalarVec M) (lit 0xFF800000#32) a ix0 fun ax => ax.elim0) (bidVecCol M)

theorem tSumCol {C : Nat} {x : Tl T C} {X : Mat M C} (hx : IsTile r0 hr x X) : IsTile r0 hr (kSumCol x) (sumCol X) :=
  (laneSum 0x00000000#32 (red T C) (.inl rfl) rfl (scCol T) hx).congr (sumCol_eq X).symm

theorem tMaxCol {C : Nat} {x : Tl T C} {X : Mat M C} (hx : IsTile r0 hr x X) : IsTile r0 hr (kMaxCol x) (maxCol X) :=
  (laneMax 0xFF800000#32 (red T C) (.inl rfl) rfl (scCol T) hx).congr (maxCol_eq X).symm

theorem tSplat (C : Nat) (b : BitVec 32) : IsTile r0 hr (kSplat T C b) (splat M C b) := vSplat b (bidScalar M C)

theorem tAcross (C : Nat) {v : Tl T 1} {V : Mat M 1} (hv : IsTile r0 hr v V) : IsTile r0 hr (kAcross C v) (across C V) :=
  colRep (bcCol T C) (bidCol M C) hv

/-- A length-C vector b, as the kernel finds it (cast to a 1 × C row), repeated down the tile's rows, is the tile of b
    repeated down the whole array's rows. -/
theorem tRows {C : Nat} (b : Vec1 C) (h1 : (⟨1, ![C]⟩ : Shape).ShapeCasts ⟨2, ![1, C]⟩) :
    IsTile r0 hr (kRows T (shapeCast ⟨2, ![1, C]⟩ b h1)) (rows M b) := by
  unfold kRows
  rw [shapeCast_self]
  exact bias b h1 (bcRow T C) (bidVecRow C) (bidRow M C)

theorem tMeanCol {C : Nat} (n : BitVec 32) {x : Tl T C} {X : Mat M C} (hx : IsTile r0 hr x X) :
    IsTile r0 hr (kMeanCol n x) (meanCol n X) := vDiv (tSumCol hx) (tSplat 1 n)

theorem tCenter {C : Nat} (n : BitVec 32) {x : Tl T C} {X : Mat M C} (hx : IsTile r0 hr x X) :
    IsTile r0 hr (kCenter n x) (center n X) := vSub hx (tAcross C (tMeanCol n hx))

theorem tRsqrt {C : Nat} {x : Tl T C} {X : Mat M C} (hx : IsTile r0 hr x X) : IsTile r0 hr (rsqrt x) (Host.rsqrt X) :=
  map Ideal.rsqrt hx

theorem tSqrt {C : Nat} {x : Tl T C} {X : Mat M C} (hx : IsTile r0 hr x X) : IsTile r0 hr (sqrt x) (Host.sqrt X) :=
  map Ideal.sqrt hx

theorem tExp {C : Nat} {x : Tl T C} {X : Mat M C} (hx : IsTile r0 hr x X) : IsTile r0 hr (exp x) (Host.exp X) :=
  map Ideal.exp hx

theorem tLnorm {C : Nat} (n : BitVec 32) {x : Tl T C} {X : Mat M C} (hx : IsTile r0 hr x X) (g be : Vec1 C)
    (h1 : (⟨1, ![C]⟩ : Shape).ShapeCasts ⟨2, ![1, C]⟩) :
    IsTile r0 hr (kLnorm n x (shapeCast ⟨2, ![1, C]⟩ g h1) (shapeCast ⟨2, ![1, C]⟩ be h1)) (lnorm n X g be) :=
  vAdd (vMul (vMul (tCenter n hx)
      (tAcross C (tRsqrt (vAdd (tMeanCol n (vMul (tCenter n hx) (tCenter n hx))) (tSplat 1 0x3727C5AC#32)))))
    (tRows g h1)) (tRows be h1)

theorem tRelu {C : Nat} {x : Tl T C} {X : Mat M C} (hx : IsTile r0 hr x X) : IsTile r0 hr (kRelu x) (relu X) :=
  vMax hx (tSplat C 0x00000000#32)

theorem tShift {C : Nat} {x : Tl T C} {X : Mat M C} (hx : IsTile r0 hr x X) :
    IsTile r0 hr (kShift x) (subf X (across C (maxCol X))) := vSub hx (tAcross C (tMaxCol hx))

theorem tNormExp {C : Nat} {s : Tl T C} {S : Mat M C} (hs : IsTile r0 hr s S) :
    IsTile r0 hr (kNormExp s) (Host.divf (Host.exp S) (across C (sumCol (Host.exp S)))) :=
  vDiv (tExp hs) (tAcross C (tSumCol (tExp hs)))

/-- The softmax of the whole array is exp of the shifted array divided by its row sums. -/
theorem tSoftmax {C : Nat} {x : Tl T C} {X : Mat M C} (hx : IsTile r0 hr x X) :
    IsTile r0 hr (kNormExp (kShift x)) (softmax X) := tNormExp (tShift hx)

theorem tUnitOf {C : Nat} {v : Tl T C} {V : Mat M C} {ss : Tl T 1} (hv : IsTile r0 hr v V)
    (hss : IsTile r0 hr ss (sumCol (mulf V V))) : IsTile r0 hr (kUnitOf v ss) (unit V) :=
  vDiv hv (tAcross C (vMax (tSqrt hss) (tSplat 1 0x2B8CBCCC#32)))

theorem tUnit {C : Nat} {v : Tl T C} {V : Mat M C} (hv : IsTile r0 hr v V) : IsTile r0 hr (kUnit v) (unit V) :=
  tUnitOf hv (tSumCol (vMul hv hv))

theorem tStrip {C : Nat} {v u : Tl T C} {V U : Mat M C} (hv : IsTile r0 hr v V) (hu : IsTile r0 hr u U) :
    IsTile r0 hr (kStrip v u) (strip V U) := vSub hv (vMul (tAcross C (tSumCol (vMul hv hu))) hu)

/-- The product of a tile with a weight matrix (as the kernel finds it, cast to its own shape) plus a bias row is the
    tile of the whole array's dense layer. -/
theorem tDense {K N : Nat} {φ₁ φ₂ : FTy} {x : (⟨2, ![T, K]⟩ : Shape).Idx → EReal} {X : Mat M K}
    (d : DotDims ⟨2, ![T, K]⟩ ⟨2, ![K, N]⟩ ⟨2, ![T, N]⟩) (hd : d = DotDims.plain T K N) (W : Mat K N) (b : Vec1 N)
    (h1 : (⟨1, ![N]⟩ : Shape).ShapeCasts ⟨2, ![1, N]⟩) (hx : IsTile r0 hr x X) :
    IsTile r0 hr
      (addf (F := Ideal) (Idealize.ShloMosaic.matmul (F := Ideal) (φ₁ := φ₁) (φ₂ := φ₂) d none x
          (shapeCast ⟨2, ![K, N]⟩ W (scSelf _)) (constant ⟨2, ![T, N]⟩ .f32 0x00000000#32))
        (kRows T (shapeCast ⟨2, ![1, N]⟩ b h1)))
      (dense X W b) := by
  rw [shapeCast_self]
  exact vAdd (vMatmul d hd none W hx) (tRows b h1)

end Cert.KSpec

end
-- ==== Proof.LibSplitDense.lean ====
/-
  A dense layer applied to arrays joined along their columns. If an M × K array is X, Y (and Z) laid side by side, with
  K = A + B (+ C) columns, then row r of its product with a K × N weight matrix W is

      Σ_{k < K} [X Y Z](r, k) · W(k, j)  =  Σ_{a < A} X(r, a) · W(a, j)  +  Σ_{b < B} Y(r, b) · W(A + b, j)  (+ Σ_{c < C} Z(r, c) · W(A + B + c, j)),

  the products of the pieces with the matching row slices of W, added up. Only the associativity and commutativity of
  the sum are used (a finite sum over k < A + B splits at A), so the identity holds on the extended reals at every
  value, infinite ones included. Stated with the host's operations on whole arrays: the joined array is a
  concatenation along axis 1, the slices of W are unit-stride slices starting at rows 0, A and A + B.
-/
import proofs.«176863_j74174085202606_2_alg».proof.Proof.LibHostLayers

noncomputable section

open scoped BigOperators

namespace Cert.Split

open Idealize.ShloMosaic Idealize.ShloMosaic.ValueIdx Cert.Tile Cert.Spec

/-- X · W, the plain row-by-column product accumulated from zero, in the host's word. -/
def mm {M K N : Nat} (X : Mat M K) (W : Mat K N) : Mat M N :=
  Host.dotGeneral (F := Ideal) (DotDims.plain M K N) none X W

/-- Entry (r, j) of X · W is the sum over k of X (r, k) · W (k, j). -/
theorem mm_apply {M K N : Nat} (X : Mat M K) (W : Mat K N) (r : Fin M) (j : Fin N) :
    mm X W (ix2 r j) = ∑ k : Fin K, X (ix2 r k) * W (ix2 k j) := by
  show Ideal.matmul (DotDims.plain M K N) X W (fun _ => 0) (ix2 r j) = _
  unfold Ideal.matmul
  rw [zero_add, ← Equiv.sum_comp (contrEquiv1 (DotDims.plain M K N) K rfl rfl).symm]
  refine Finset.sum_congr rfl fun k _ => ?_
  have hk := contrEquiv1_symm_val (DotDims.plain M K N) K rfl rfl k
  rw [plain_lhs, plain_rhs]
  have e : ((contrEquiv1 (DotDims.plain M K N) K rfl rfl).symm k) ⟨0, Nat.one_pos⟩ = k := Fin.ext hk
  rw [e]
  rfl

/-- Three products added, then a bias row: X · Wa + Y · Wb + Z · Wc + b. -/
def lin3 {M A B C N : Nat} (X : Mat M A) (Y : Mat M B) (Z : Mat M C) (Wa : Mat A N) (Wb : Mat B N) (Wc : Mat C N)
    (b : Vec1 N) : Mat M N :=
  addf (addf (addf (mm X Wa) (mm Y Wb)) (mm Z Wc)) (rows M b)

/-- Two products added, then a bias row: X · Wa + Y · Wb + b. -/
def lin2 {M A B N : Nat} (X : Mat M A) (Y : Mat M B) (Wa : Mat A N) (Wb : Mat B N) (b : Vec1 N) : Mat M N :=
  addf (addf (mm X Wa) (mm Y Wb)) (rows M b)

section Read
variable {M N K : Nat}

/-- Rows [o, o + A) of W, read at (a, j): row o + a of W. -/
theorem rowsOf_apply {A : Nat} (o : Nat) (W : Mat K N) (s : (⟨2, ![K, N]⟩ : Shape).Slices ![o, 0] ⟨2, ![A, N]⟩)
    (a : Fin A) (j : Fin N) (h : o + a.val < K) :
    extractStridedSlice ⟨2, ![A, N]⟩ ![o, 0] W s (ix2 a j) = W (ix2 ⟨o + a.val, h⟩ j) := by
  refine extractStridedSlice_apply _ W s (ix2 a j) (ix2 ⟨o + a.val, h⟩ j) fun ax => ?_
  match ax with
  | ⟨0, _⟩ => rfl
  | ⟨1, _⟩ => show j.val = 0 + j.val; omega

end Read

/-- Two arrays side by side, times W, plus a bias: the pieces times the matching rows of W, added, plus the bias. -/
theorem dense_cat2 {M A B K N : Nat} (hK : A + B = K) (X : Mat M A) (Y : Mat M B) (W : Mat K N) (b : Vec1 N)
    (hc : Shape.Concatenates [⟨2, ![M, A]⟩, ⟨2, ![M, B]⟩] ⟨2, ![M, K]⟩ (1 : Fin 2))
    (oB : Nat) (hB : A = oB)
    (sa : (⟨2, ![K, N]⟩ : Shape).Slices ![0, 0] ⟨2, ![A, N]⟩) (sb : (⟨2, ![K, N]⟩ : Shape).Slices ![oB, 0] ⟨2, ![B, N]⟩) :
    dense (concatenate ⟨2, ![M, K]⟩ (1 : Fin 2) [⟨⟨2, ![M, A]⟩, X⟩, ⟨⟨2, ![M, B]⟩, Y⟩] hc) W b
      = lin2 X Y (extractStridedSlice ⟨2, ![A, N]⟩ ![0, 0] W sa) (extractStridedSlice ⟨2, ![B, N]⟩ ![oB, 0] W sb) b := by
  subst hK hB
  funext i
  obtain ⟨r, j, rfl⟩ : ∃ (r : Fin M) (j : Fin N), i = ix2 r j := ⟨i 0, i 1, eq_ix2 i⟩
  show mm _ W (ix2 r j) + rows M b (ix2 r j) = (mm X _ (ix2 r j) + mm Y _ (ix2 r j)) + rows M b (ix2 r j)
  refine congrArg (· + rows M b (ix2 r j)) ?_
  rw [mm_apply, mm_apply, mm_apply, Fin.sum_univ_add]
  refine congrArg₂ (· + ·) (Finset.sum_congr rfl fun a _ => ?_) (Finset.sum_congr rfl fun a _ => ?_)
  · have e1 : concatenate ⟨2, ![M, A + B]⟩ (1 : Fin 2) [⟨⟨2, ![M, A]⟩, X⟩, ⟨⟨2, ![M, B]⟩, Y⟩] hc (ix2 r (Fin.castAdd B a)) = X (ix2 r a) :=
      concatenate_apply_piece (t := ⟨2, ![M, A + B]⟩) (1 : Fin 2) [⟨⟨2, ![M, A]⟩, X⟩, ⟨⟨2, ![M, B]⟩, Y⟩] hc (ix2 r (Fin.castAdd B a)) 0 (by simp) ⟨2, ![M, A]⟩ X rfl rfl 0
        (by first | rfl | simp) (ix2 r a)
        (fun ax hax => by
          match ax with
          | ⟨0, _⟩ => rfl
          | ⟨1, _⟩ => exact absurd rfl hax)
        (by first | rfl | simp)
    rw [e1, rowsOf_apply 0 W sa a j (by have := a.isLt; omega)]
    exact congrArg (fun q => X (ix2 r a) * W (ix2 q j)) (Fin.ext (by show a.val = 0 + a.val; omega))
  · have e1 : concatenate ⟨2, ![M, A + B]⟩ (1 : Fin 2) [⟨⟨2, ![M, A]⟩, X⟩, ⟨⟨2, ![M, B]⟩, Y⟩] hc (ix2 r (Fin.natAdd A a)) = Y (ix2 r a) :=
      concatenate_apply_piece (t := ⟨2, ![M, A + B]⟩) (1 : Fin 2) [⟨⟨2, ![M, A]⟩, X⟩, ⟨⟨2, ![M, B]⟩, Y⟩] hc (ix2 r (Fin.natAdd A a)) 1 (by simp) ⟨2, ![M, B]⟩ Y rfl rfl A
        (by first | rfl | simp) (ix2 r a)
        (fun ax hax => by
          match ax with
          | ⟨0, _⟩ => rfl
          | ⟨1, _⟩ => exact absurd rfl hax)
        (by first | rfl | simp)
    rw [e1, rowsOf_apply A W sb a j (by have := a.isLt; omega)]
    exact congrArg (fun q => Y (ix2 r a) * W (ix2 q j)) (Fin.ext rfl)

/-- Three arrays side by side, times W, plus a bias: the pieces times the matching rows of W, added, plus the bias. -/
theorem dense_cat3 {M A B C K N : Nat} (hK : A + B + C = K) (X : Mat M A) (Y : Mat M B) (Z : Mat M C) (W : Mat K N)
    (b : Vec1 N)
    (hc : Shape.Concatenates [⟨2, ![M, A]⟩, ⟨2, ![M, B]⟩, ⟨2, ![M, C]⟩] ⟨2, ![M, K]⟩ (1 : Fin 2))
    (oB oC : Nat) (hB : A = oB) (hC : A + B = oC)
    (sa : (⟨2, ![K, N]⟩ : Shape).Slices ![0, 0] ⟨2, ![A, N]⟩) (sb : (⟨2, ![K, N]⟩ : Shape).Slices ![oB, 0] ⟨2, ![B, N]⟩)
    (sc : (⟨2, ![K, N]⟩ : Shape).Slices ![oC, 0] ⟨2, ![C, N]⟩) :
    dense (concatenate ⟨2, ![M, K]⟩ (1 : Fin 2) [⟨⟨2, ![M, A]⟩, X⟩, ⟨⟨2, ![M, B]⟩, Y⟩, ⟨⟨2, ![M, C]⟩, Z⟩] hc) W b
      = lin3 X Y Z (extractStridedSlice ⟨2, ![A, N]⟩ ![0, 0] W sa) (extractStridedSlice ⟨2, ![B, N]⟩ ![oB, 0] W sb)
          (extractStridedSlice ⟨2, ![C, N]⟩ ![oC, 0] W sc) b := by
  subst hK hB hC
  funext i
  obtain ⟨r, j, rfl⟩ : ∃ (r : Fin M) (j : Fin N), i = ix2 r j := ⟨i 0, i 1, eq_ix2 i⟩
  show mm _ W (ix2 r j) + rows M b (ix2 r j)
    = ((mm X _ (ix2 r j) + mm Y _ (ix2 r j)) + mm Z _ (ix2 r j)) + rows M b (ix2 r j)
  refine congrArg (· + rows M b (ix2 r j)) ?_
  rw [mm_apply, mm_apply, mm_apply, mm_apply, Fin.sum_univ_add, Fin.sum_univ_add]
  refine congrArg₂ (· + ·) (congrArg₂ (· + ·) (Finset.sum_congr rfl fun a _ => ?_) (Finset.sum_congr rfl fun a _ => ?_))
    (Finset.sum_congr rfl fun a _ => ?_)
  · have e1 : concatenate ⟨2, ![M, A + B + C]⟩ (1 : Fin 2) [⟨⟨2, ![M, A]⟩, X⟩, ⟨⟨2, ![M, B]⟩, Y⟩, ⟨⟨2, ![M, C]⟩, Z⟩] hc (ix2 r (Fin.castAdd C (Fin.castAdd B a))) = X (ix2 r a) :=
      concatenate_apply_piece (t := ⟨2, ![M, A + B + C]⟩) (1 : Fin 2) [⟨⟨2, ![M, A]⟩, X⟩, ⟨⟨2, ![M, B]⟩, Y⟩, ⟨⟨2, ![M, C]⟩, Z⟩] hc (ix2 r (Fin.castAdd C (Fin.castAdd B a))) 0 (by simp) ⟨2, ![M, A]⟩ X rfl rfl 0
        (by first | rfl | simp) (ix2 r a)
        (fun ax hax => by
          match ax with
          | ⟨0, _⟩ => rfl
          | ⟨1, _⟩ => exact absurd rfl hax)
        (by first | rfl | simp)
    rw [e1, rowsOf_apply 0 W sa a j (by have := a.isLt; omega)]
    exact congrArg (fun q => X (ix2 r a) * W (ix2 q j)) (Fin.ext (by show a.val = 0 + a.val; omega))
  · have e1 : concatenate ⟨2, ![M, A + B + C]⟩ (1 : Fin 2) [⟨⟨2, ![M, A]⟩, X⟩, ⟨⟨2, ![M, B]⟩, Y⟩, ⟨⟨2, ![M, C]⟩, Z⟩] hc (ix2 r (Fin.castAdd C (Fin.natAdd A a))) = Y (ix2 r a) :=
      concatenate_apply_piece (t := ⟨2, ![M, A + B + C]⟩) (1 : Fin 2) [⟨⟨2, ![M, A]⟩, X⟩, ⟨⟨2, ![M, B]⟩, Y⟩, ⟨⟨2, ![M, C]⟩, Z⟩] hc (ix2 r (Fin.castAdd C (Fin.natAdd A a))) 1 (by simp) ⟨2, ![M, B]⟩ Y rfl rfl A
        (by first | rfl | simp) (ix2 r a)
        (fun ax hax => by
          match ax with
          | ⟨0, _⟩ => rfl
          | ⟨1, _⟩ => exact absurd rfl hax)
        (by first | rfl | simp)
    rw [e1, rowsOf_apply A W sb a j (by have := a.isLt; omega)]
    exact congrArg (fun q => Y (ix2 r a) * W (ix2 q j)) (Fin.ext rfl)
  · have e1 : concatenate ⟨2, ![M, A + B + C]⟩ (1 : Fin 2) [⟨⟨2, ![M, A]⟩, X⟩, ⟨⟨2, ![M, B]⟩, Y⟩, ⟨⟨2, ![M, C]⟩, Z⟩] hc (ix2 r (Fin.natAdd (A + B) a)) = Z (ix2 r a) :=
      concatenate_apply_piece (t := ⟨2, ![M, A + B + C]⟩) (1 : Fin 2) [⟨⟨2, ![M, A]⟩, X⟩, ⟨⟨2, ![M, B]⟩, Y⟩, ⟨⟨2, ![M, C]⟩, Z⟩] hc (ix2 r (Fin.natAdd (A + B) a)) 2 (by simp) ⟨2, ![M, C]⟩ Z rfl rfl (A + B)
        (by first | rfl | simp) (ix2 r a)
        (fun ax hax => by
          match ax with
          | ⟨0, _⟩ => rfl
          | ⟨1, _⟩ => exact absurd rfl hax)
        (by first | rfl | simp)
    rw [e1, rowsOf_apply (A + B) W sc a j (by have := a.isLt; omega)]
    exact congrArg (fun q => Z (ix2 r a) * W (ix2 q j)) (Fin.ext rfl)

end Cert.Split

end
-- ==== Proof.TileNet.lean ====
/-
  The two networks of a message-passing layer, each on whole arrays (in the host's operations) and on a tile of T rows
  (in a kernel's vector operations).

  A network here is: a first linear layer whose input comes in two or three column groups, each group multiplied with
  its own block of the weight matrix and the products added, plus a bias; then max(·, 0), a dense layer, max(·, 0), a
  dense layer, and a layer normalisation over the features, (x − mean) · rsqrt(var + ε) · g + β. The node network adds
  the node's own features to the result. Every one of these operations works row by row, so if the tile's inputs are
  rows [r0, r0 + T) of the whole arrays' inputs, the tile's output is rows [r0, r0 + T) of the whole arrays' output.
  The narrowing of the matrix operands to a shorter float format is the identity on the extended reals.
-/
import proofs.«176863_j74174085202606_2_alg».proof.Proof.LibTileLayers
import proofs.«176863_j74174085202606_2_alg».proof.Proof.LibSplitDense

noncomputable section

namespace Cert.Net

open Idealize.ShloMosaic Idealize.ShloMosaic.ValueIdx Cert.Tile Cert.Spec Cert.KSpec Cert.Split

/-! ## Whole arrays -/

/-- After the first linear layer: max(·, 0), dense, max(·, 0), dense, layer normalisation (count n as an f32 pattern). -/
def tail {M K H C : Nat} (n : BitVec 32) (X1 : Mat M K) (W2 : Mat K H) (b2 : Vec1 H) (W3 : Mat H C) (b3 g be : Vec1 C) :
    Mat M C :=
  lnorm n (dense (relu (dense (relu X1) W2 b2)) W3 b3) g be

/-- The edge network: the first layer over source features, destination features and edge attributes, then the rest. -/
def msgNet {M A B H C : Nat} (n : BitVec 32) (Hs Hd : Mat M A) (Ea : Mat M B) (Wa Wb : Mat A H) (Wc : Mat B H) (b1 : Vec1 H)
    (W2 : Mat H H) (b2 : Vec1 H) (W3 : Mat H C) (b3 g be : Vec1 C) : Mat M C :=
  tail n (lin3 Hs Hd Ea Wa Wb Wc b1) W2 b2 W3 b3 g be

/-- The node network: the first layer over node features and aggregated messages, then the rest, plus the node's own
    features. -/
def updNet {M A H : Nat} (n : BitVec 32) (X G : Mat M A) (Wa Wb : Mat A H) (b1 : Vec1 H)
    (W2 : Mat H H) (b2 : Vec1 H) (W3 : Mat H A) (b3 g be : Vec1 A) : Mat M A :=
  addf (tail n (lin2 X G Wa Wb b1) W2 b2 W3 b3 g be) X

/-! ## A tile of T rows, in the kernel's words -/

variable {T : Nat}

/-- A length-C vector as a 1 × C row repeated down the tile's rows. -/
def kBias (T : Nat) {C : Nat} (b : Vec1 C) (h1 : (⟨1, ![C]⟩ : Shape).ShapeCasts ⟨2, ![1, C]⟩) : Tl T C :=
  broadcastTo ⟨2, ![T, C]⟩ (shapeCast ⟨2, ![1, C]⟩ b h1) (bcRow T C)

/-- x · W accumulated from zero, both operands in the narrow format. -/
def kMm {K N : Nat} (d : DotDims ⟨2, ![T, K]⟩ ⟨2, ![K, N]⟩ ⟨2, ![T, N]⟩) (x : FVec Ideal ⟨2, ![T, K]⟩ .bf16) (W : Mat K N)
    (hb : FTy.bf16.bits < FTy.f32.bits) : Tl T N :=
  matmul (F := Ideal) d none x (truncf (F := Ideal) .bf16 W hb) (constant ⟨2, ![T, N]⟩ .f32 0x00000000#32)

/-- x · W + b. -/
def kDense {K N : Nat} (d : DotDims ⟨2, ![T, K]⟩ ⟨2, ![K, N]⟩ ⟨2, ![T, N]⟩) (x : FVec Ideal ⟨2, ![T, K]⟩ .bf16) (W : Mat K N)
    (b : Vec1 N) (hb : FTy.bf16.bits < FTy.f32.bits) (h1 : (⟨1, ![N]⟩ : Shape).ShapeCasts ⟨2, ![1, N]⟩) : Tl T N :=
  addf (kMm d x W hb) (kBias T b h1)

/-- max(x, 0), narrowed. -/
def kReluN {C : Nat} (x : Tl T C) (hb : FTy.bf16.bits < FTy.f32.bits) : FVec Ideal ⟨2, ![T, C]⟩ .bf16 :=
  truncf (F := Ideal) .bf16 (kRelu x) hb

/-- The layer normalisation of a tile, the scale and the shift as rows repeated down the tile. -/
def kLn {C : Nat} (n : BitVec 32) (x : Tl T C) (g be : Vec1 C) (h1 : (⟨1, ![C]⟩ : Shape).ShapeCasts ⟨2, ![1, C]⟩) : Tl T C :=
  addf (mulf (mulf (kCenter n x)
      (kAcross C (rsqrt (addf (kMeanCol n (mulf (kCenter n x) (kCenter n x))) (kSplat T 1 0x3727C5AC#32)))))
    (kBias T g h1)) (kBias T be h1)

/-- Three products added, plus a bias. -/
def kLin3 {A B N : Nat} (dA : DotDims ⟨2, ![T, A]⟩ ⟨2, ![A, N]⟩ ⟨2, ![T, N]⟩) (dB : DotDims ⟨2, ![T, B]⟩ ⟨2, ![B, N]⟩ ⟨2, ![T, N]⟩)
    (x y : FVec Ideal ⟨2, ![T, A]⟩ .bf16) (z : FVec Ideal ⟨2, ![T, B]⟩ .bf16) (Wa Wb : Mat A N) (Wc : Mat B N) (b : Vec1 N)
    (hb : FTy.bf16.bits < FTy.f32.bits) (h1 : (⟨1, ![N]⟩ : Shape).ShapeCasts ⟨2, ![1, N]⟩) : Tl T N :=
  addf (addf (addf (kMm dA x Wa hb) (kMm dA y Wb hb)) (kMm dB z Wc hb)) (kBias T b h1)

/-- Two products added, plus a bias. -/
def kLin2 {A N : Nat} (dA : DotDims ⟨2, ![T, A]⟩ ⟨2, ![A, N]⟩ ⟨2, ![T, N]⟩)
    (x y : FVec Ideal ⟨2, ![T, A]⟩ .bf16) (Wa Wb : Mat A N) (b : Vec1 N)
    (hb : FTy.bf16.bits < FTy.f32.bits) (h1 : (⟨1, ![N]⟩ : Shape).ShapeCasts ⟨2, ![1, N]⟩) : Tl T N :=
  addf (addf (kMm dA x Wa hb) (kMm dA y Wb hb)) (kBias T b h1)

/-! ## Each keeps tiles -/

variable {M : Nat} {r0 : Nat} {hr : r0 + T ≤ M}

theorem tBias {C : Nat} (b : Vec1 C) (h1 : (⟨1, ![C]⟩ : Shape).ShapeCasts ⟨2, ![1, C]⟩) :
    IsTile r0 hr (kBias T b h1) (rows M b) :=
  bias b h1 (bcRow T C) (bidVecRow C) (bidRow M C)

theorem tMm {K N : Nat} (d : DotDims ⟨2, ![T, K]⟩ ⟨2, ![K, N]⟩ ⟨2, ![T, N]⟩) (hd : d = DotDims.plain T K N)
    {x : FVec Ideal ⟨2, ![T, K]⟩ .bf16} {X : Mat M K} (W : Mat K N) (hb : FTy.bf16.bits < FTy.f32.bits)
    (hx : IsTile r0 hr x X) : IsTile r0 hr (kMm d x W hb) (mm X W) :=
  vMatmul d hd none W hx

theorem tDenseN {K N : Nat} (d : DotDims ⟨2, ![T, K]⟩ ⟨2, ![K, N]⟩ ⟨2, ![T, N]⟩) (hd : d = DotDims.plain T K N)
    {x : FVec Ideal ⟨2, ![T, K]⟩ .bf16} {X : Mat M K} (W : Mat K N) (b : Vec1 N) (hb : FTy.bf16.bits < FTy.f32.bits)
    (h1 : (⟨1, ![N]⟩ : Shape).ShapeCasts ⟨2, ![1, N]⟩) (hx : IsTile r0 hr x X) :
    IsTile r0 hr (kDense d x W b hb h1) (dense X W b) :=
  vAdd (tMm d hd W hb hx) (tBias b h1)

theorem tReluN {C : Nat} {x : Tl T C} {X : Mat M C} (hb : FTy.bf16.bits < FTy.f32.bits) (hx : IsTile r0 hr x X) :
    IsTile r0 hr (kReluN x hb) (relu X) :=
  vTrunc .bf16 hb (tRelu hx)

theorem tLn {C : Nat} (n : BitVec 32) {x : Tl T C} {X : Mat M C} (g be : Vec1 C)
    (h1 : (⟨1, ![C]⟩ : Shape).ShapeCasts ⟨2, ![1, C]⟩) (hx : IsTile r0 hr x X) :
    IsTile r0 hr (kLn n x g be h1) (lnorm n X g be) :=
  vAdd (vMul (vMul (tCenter n hx)
      (tAcross C (tRsqrt (vAdd (tMeanCol n (vMul (tCenter n hx) (tCenter n hx))) (tSplat 1 0x3727C5AC#32)))))
    (tBias g h1)) (tBias be h1)

theorem tLin3 {A B N : Nat} (dA : DotDims ⟨2, ![T, A]⟩ ⟨2, ![A, N]⟩ ⟨2, ![T, N]⟩) (hdA : dA = DotDims.plain T A N)
    (dB : DotDims ⟨2, ![T, B]⟩ ⟨2, ![B, N]⟩ ⟨2, ![T, N]⟩) (hdB : dB = DotDims.plain T B N)
    {x y : FVec Ideal ⟨2, ![T, A]⟩ .bf16} {z : FVec Ideal ⟨2, ![T, B]⟩ .bf16} {X Y : Mat M A} {Z : Mat M B}
    (Wa Wb : Mat A N) (Wc : Mat B N) (b : Vec1 N) (hb : FTy.bf16.bits < FTy.f32.bits)
    (h1 : (⟨1, ![N]⟩ : Shape).ShapeCasts ⟨2, ![1, N]⟩)
    (hx : IsTile r0 hr x X) (hy : IsTile r0 hr y Y) (hz : IsTile r0 hr z Z) :
    IsTile r0 hr (kLin3 dA dB x y z Wa Wb Wc b hb h1) (lin3 X Y Z Wa Wb Wc b) :=
  vAdd (vAdd (vAdd (tMm dA hdA Wa hb hx) (tMm dA hdA Wb hb hy)) (tMm dB hdB Wc hb hz)) (tBias b h1)

theorem tLin2 {A N : Nat} (dA : DotDims ⟨2, ![T, A]⟩ ⟨2, ![A, N]⟩ ⟨2, ![T, N]⟩) (hdA : dA = DotDims.plain T A N)
    {x y : FVec Ideal ⟨2, ![T, A]⟩ .bf16} {X Y : Mat M A}
    (Wa Wb : Mat A N) (b : Vec1 N) (hb : FTy.bf16.bits < FTy.f32.bits)
    (h1 : (⟨1, ![N]⟩ : Shape).ShapeCasts ⟨2, ![1, N]⟩)
    (hx : IsTile r0 hr x X) (hy : IsTile r0 hr y Y) :
    IsTile r0 hr (kLin2 dA x y Wa Wb b hb h1) (lin2 X Y Wa Wb b) :=
  vAdd (vAdd (tMm dA hdA Wa hb hx) (tMm dA hdA Wb hb hy)) (tBias b h1)

end Cert.Net

end
-- ==== Proof.RegionVal.lean ====
/-
  Each region's output array after the region, as the network's whole output of the arrays the region finds at entry.

  A region runs its body at every grid point on the point's blocks. The row-tiled windows' blocks at point t are rows
  [T t, T t + T) of their arrays (T = 4000 edges in the edge region, 5000 nodes in the node region); the weight, bias,
  scale and shift windows' blocks are their whole arrays at every point. The body's stored value is the network of those
  blocks, which is rows [T t, T t + T) of the network of the whole arrays because every layer works row by row. So
  point t writes back block t of the whole output, and the blocks of the grid's points cover the output array.
-/
import proofs.«176863_j74174085202606_2_alg».proof.Proof.Gen.KernelIdeal.Frame
import proofs.«176863_j74174085202606_2_alg».proof.Proof.TileNet

set_option maxRecDepth 16384

noncomputable section

namespace Cert.KernelIdeal.RegionVal

open Cert.KernelIdeal Cert.KernelIdeal.Gen
open Idealize.ShloMosaic Idealize.ShloMosaic.TcCoe Idealize.ShloMosaic.ValueIdx Idealize.SL.Sem
open Idealize.ShloMosaic.Pipeline (Dat)
open Cert.Tile Cert.Spec Cert.KSpec Cert.Split Cert.Net

theorem hz2 : (![0, 0] : Fin 2 → Nat) = fun _ => 0 := funext fun a => by fin_cases a <;> rfl
theorem hz1 : (![0] : Fin 1 → Nat) = fun _ => 0 := funext fun a => by fin_cases a; rfl

/-! # The bodies' stored values are the networks on a tile -/

/-- The edge region's stored value, layer by layer. -/
theorem pay0_eq (x0 x1 : Vec Ideal S4000x64 .bf16) (x2 : Vec Ideal S4000x32 .bf16) (x3 x4 : Vec Ideal S64x128 .f32)
    (x5 : Vec Ideal S32x128 .f32) (x6 : Vec Ideal S128 .f32) (x7 : Vec Ideal S128x128 .f32) (x8 : Vec Ideal S128 .f32)
    (x9 : Vec Ideal S128x64 .f32) (x10 x11 x12 : Vec Ideal S64 .f32) :
    k0_pay1 (k0_pay2 x0 x1 x2 x3 x4 x5 x6 x7 x8) x9 x10 x11 x12
      = kLn 0x42800000#32
          (kDense dot_S4000x128_S128x64_S4000x64_1_0_0_1_n_n
            (kReluN (kDense dot_S4000x128_S128x128_S4000x128_1_0_0_1_n_n
              (kReluN (kLin3 dot_S4000x64_S64x128_S4000x128_1_0_0_1_n_n dot_S4000x32_S32x128_S4000x128_1_0_0_1_n_n
                x0 x1 x2 x3 x4 x5 x6 bitsLt_bf16_f32 shapeCasts_S128_S1x128) bitsLt_bf16_f32)
              x7 x8 bitsLt_bf16_f32 shapeCasts_S128_S1x128) bitsLt_bf16_f32)
            x9 x10 bitsLt_bf16_f32 shapeCasts_S64_S1x64)
          x11 x12 shapeCasts_S64_S1x64 := by
  unfold k0_pay1 k0_pay2
  simp only [shapeCast_self]
  rfl

/-- The edge region's stored value on a tile of the edge arrays is the tile of the edge network's whole output. -/
theorem pay0_tile {r0 : Nat} (hr : r0 + 4000 ≤ 400000)
    (x0 x1 : Vec Ideal S4000x64 .bf16) (x2 : Vec Ideal S4000x32 .bf16) (x3 x4 : Vec Ideal S64x128 .f32)
    (x5 : Vec Ideal S32x128 .f32) (x6 : Vec Ideal S128 .f32) (x7 : Vec Ideal S128x128 .f32) (x8 : Vec Ideal S128 .f32)
    (x9 : Vec Ideal S128x64 .f32) (x10 x11 x12 : Vec Ideal S64 .f32)
    (Hs Hd : Mat 400000 64) (Ea : Mat 400000 32)
    (h0 : IsTile r0 hr x0 Hs) (h1 : IsTile r0 hr x1 Hd) (h2 : IsTile r0 hr x2 Ea) :
    IsTile r0 hr (k0_pay1 (k0_pay2 x0 x1 x2 x3 x4 x5 x6 x7 x8) x9 x10 x11 x12)
      (msgNet 0x42800000#32 Hs Hd Ea x3 x4 x5 x6 x7 x8 x9 x10 x11 x12) := by
  rw [pay0_eq]
  exact tLn _ _ _ _ (tDenseN _ rfl _ _ _ _ (tReluN _ (tDenseN _ rfl _ _ _ _ (tReluN _
    (tLin3 _ rfl _ rfl _ _ _ _ _ _ h0 h1 h2)))))

/-- The node region's stored value, layer by layer. -/
theorem pay1_eq (x0 x1 : Vec Ideal S5000x64 .f32) (x2 x3 : Vec Ideal S64x128 .f32) (x4 : Vec Ideal S128 .f32)
    (x5 : Vec Ideal S128x128 .f32) (x6 : Vec Ideal S128 .f32) (x7 : Vec Ideal S128x64 .f32) (x8 x9 x10 : Vec Ideal S64 .f32) :
    k1_pay1 x0 (k1_pay2 x0 x1 x2 x3 x4 x5 x6 x7 x8) x9 x10
      = addf (kLn 0x42800000#32
          (kDense dot_S5000x128_S128x64_S5000x64_1_0_0_1_n_n
            (kReluN (kDense dot_S5000x128_S128x128_S5000x128_1_0_0_1_n_n
              (kReluN (kLin2 dot_S5000x64_S64x128_S5000x128_1_0_0_1_n_n
                (truncf (F := Ideal) .bf16 x0 bitsLt_bf16_f32) (truncf (F := Ideal) .bf16 x1 bitsLt_bf16_f32)
                x2 x3 x4 bitsLt_bf16_f32 shapeCasts_S128_S1x128) bitsLt_bf16_f32)
              x5 x6 bitsLt_bf16_f32 shapeCasts_S128_S1x128) bitsLt_bf16_f32)
            x7 x8 bitsLt_bf16_f32 shapeCasts_S64_S1x64)
          x9 x10 shapeCasts_S64_S1x64) x0 := by
  unfold k1_pay1 k1_pay2
  simp only [shapeCast_self]
  rfl

/-- The node region's stored value on a tile of the node arrays is the tile of the node network's whole output. -/
theorem pay1_tile {r0 : Nat} (hr : r0 + 5000 ≤ 50000)
    (x0 x1 : Vec Ideal S5000x64 .f32) (x2 x3 : Vec Ideal S64x128 .f32) (x4 : Vec Ideal S128 .f32)
    (x5 : Vec Ideal S128x128 .f32) (x6 : Vec Ideal S128 .f32) (x7 : Vec Ideal S128x64 .f32) (x8 x9 x10 : Vec Ideal S64 .f32)
    (H G : Mat 50000 64) (h0 : IsTile r0 hr x0 H) (h1 : IsTile r0 hr x1 G) :
    IsTile r0 hr (k1_pay1 x0 (k1_pay2 x0 x1 x2 x3 x4 x5 x6 x7 x8) x9 x10)
      (updNet 0x42800000#32 H G x2 x3 x4 x5 x6 x7 x8 x9 x10) := by
  rw [pay1_eq]
  exact vAdd (tLn _ _ _ _ (tDenseN _ rfl _ _ _ _ (tReluN _ (tDenseN _ rfl _ _ _ _ (tReluN _
    (tLin2 _ rfl _ _ _ _ _ (vTrunc .bf16 _ h0) (vTrunc .bf16 _ h1))))))) h0

/-! # From blocks to arrays -/

variable (V : (c : Dev nD) → (b : Ref sig .tc) → Buf (Elt Ideal) ((c : Thread nD τ).loc b))

/-- The edge network of the arrays the edge region finds. -/
def net0 (c : Dev nD) : Mat 400000 64 :=
  msgNet 0x42800000#32 (V c main_v11) (V c main_v18) (V c main_v19) (V c main_v20) (V c main_v21) (V c main_v22)
    (V c main_arg4) (V c main_arg5) (V c main_arg6) (V c main_arg7) (V c main_arg8) (V c main_arg9) (V c main_arg10)

/-- The node network of the arrays the node region finds. -/
def net1 (c : Dev nD) : Mat 50000 64 :=
  updNet 0x42800000#32 (V c main_arg0) (V c main_v26) (V c main_v27) (V c main_v28)
    (V c main_arg12) (V c main_arg13) (V c main_arg14) (V c main_arg15) (V c main_arg16) (V c main_arg17) (V c main_arg18)

/-! # Region 0 -/

/-- The printed index maps over the grid: a row-tiled window's block index is (t, 0), a resident window's is 0. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 1) = 0
    ∧ win0_12.index t (0 : Fin 1) = 0
    ∧ win0_13.index t (0 : Fin 2) = t.val
    ∧ win0_13.index t (1 : Fin 2) = 0 :=
  (by decide +kernel : ∀ t : Fin grid0.N, _)

theorem npoints0 : cfg0.N = 100 := N_0

/-- Window 0's block at point t is rows [4000 t, 4000 t + 4000) of its array. -/
theorem tile0_0 (c : Dev nD) (t : Fin cfg0.N) (hr : 4000 * t.val + 4000 ≤ 400000) :
    IsTile (T := 4000) (M := 400000) (C := 64) (4000 * t.val) hr (iblk0 V c 0 t) (V c main_v11) := by
  intro p l
  obtain ⟨f0, f1, f2, f3, f4, f5, f6, f7, f8, f9, f10, f11, f12, f13, f14, f15, f16, f17, f18, f19, f20, f21, f22⟩ := idx_facts0 t
  show V c main_v11 (((cfg0.win 0).blk t).view.emb (ix2 p l)) = V c main_v11 (ix2 ⟨4000 * t.val + p.val, by omega⟩ l)
  refine congrArg (V c main_v11) (funext fun a => Fin.ext ?_)
  match a with
  | ⟨0, _⟩ => show win0_0.index t (0 : Fin 2) * 4000 + 1 * p.val = 4000 * t.val + p.val; omega
  | ⟨1, _⟩ => show win0_0.index t (1 : Fin 2) * 64 + 1 * l.val = l.val; omega

/-- Window 1's block at point t is rows [4000 t, 4000 t + 4000) of its array. -/
theorem tile0_1 (c : Dev nD) (t : Fin cfg0.N) (hr : 4000 * t.val + 4000 ≤ 400000) :
    IsTile (T := 4000) (M := 400000) (C := 64) (4000 * t.val) hr (iblk0 V c 1 t) (V c main_v18) := by
  intro p l
  obtain ⟨f0, f1, f2, f3, f4, f5, f6, f7, f8, f9, f10, f11, f12, f13, f14, f15, f16, f17, f18, f19, f20, f21, f22⟩ := idx_facts0 t
  show V c main_v18 (((cfg0.win 1).blk t).view.emb (ix2 p l)) = V c main_v18 (ix2 ⟨4000 * t.val + p.val, by omega⟩ l)
  refine congrArg (V c main_v18) (funext fun a => Fin.ext ?_)
  match a with
  | ⟨0, _⟩ => show win0_1.index t (0 : Fin 2) * 4000 + 1 * p.val = 4000 * t.val + p.val; omega
  | ⟨1, _⟩ => show win0_1.index t (1 : Fin 2) * 64 + 1 * l.val = l.val; omega

/-- Window 2's block at point t is rows [4000 t, 4000 t + 4000) of its array. -/
theorem tile0_2 (c : Dev nD) (t : Fin cfg0.N) (hr : 4000 * t.val + 4000 ≤ 400000) :
    IsTile (T := 4000) (M := 400000) (C := 32) (4000 * t.val) hr (iblk0 V c 2 t) (V c main_v19) := by
  intro p l
  obtain ⟨f0, f1, f2, f3, f4, f5, f6, f7, f8, f9, f10, f11, f12, f13, f14, f15, f16, f17, f18, f19, f20, f21, f22⟩ := idx_facts0 t
  show V c main_v19 (((cfg0.win 2).blk t).view.emb (ix2 p l)) = V c main_v19 (ix2 ⟨4000 * t.val + p.val, by omega⟩ l)
  refine congrArg (V c main_v19) (funext fun a => Fin.ext ?_)
  match a with
  | ⟨0, _⟩ => show win0_2.index t (0 : Fin 2) * 4000 + 1 * p.val = 4000 * t.val + p.val; omega
  | ⟨1, _⟩ => show win0_2.index t (1 : Fin 2) * 32 + 1 * l.val = l.val; omega

/-- Window 3's block at every point is its whole array. -/
theorem whole0_3 (c : Dev nD) (t : Fin cfg0.N) : iblk0 V c 3 t = V c main_v20 := by
  funext y
  obtain ⟨f0, f1, f2, f3, f4, f5, f6, f7, f8, f9, f10, f11, f12, f13, f14, f15, f16, f17, f18, f19, f20, f21, f22⟩ := idx_facts0 t
  show V c main_v20 (((cfg0.win 3).blk t).view.emb y) = V c main_v20 y
  refine congrArg (V c main_v20) (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

/-- Window 4's block at every point is its whole array. -/
theorem whole0_4 (c : Dev nD) (t : Fin cfg0.N) : iblk0 V c 4 t = V c main_v21 := by
  funext y
  obtain ⟨f0, f1, f2, f3, f4, f5, f6, f7, f8, f9, f10, f11, f12, f13, f14, f15, f16, f17, f18, f19, f20, f21, f22⟩ := idx_facts0 t
  show V c main_v21 (((cfg0.win 4).blk t).view.emb y) = V c main_v21 y
  refine congrArg (V c main_v21) (funext fun a => Fin.ext ?_)
  match a with
  | ⟨0, _⟩ => show win0_4.index t (0 : Fin 2) * 64 + 1 * (y 0).val = (y 0).val; omega
  | ⟨1, _⟩ => show win0_4.index t (1 : Fin 2) * 128 + 1 * (y 1).val = (y 1).val; omega

/-- Window 5's block at every point is its whole array. -/
theorem whole0_5 (c : Dev nD) (t : Fin cfg0.N) : iblk0 V c 5 t = V c main_v22 := by
  funext y
  obtain ⟨f0, f1, f2, f3, f4, f5, f6, f7, f8, f9, f10, f11, f12, f13, f14, f15, f16, f17, f18, f19, f20, f21, f22⟩ := idx_facts0 t
  show V c main_v22 (((cfg0.win 5).blk t).view.emb y) = V c main_v22 y
  refine congrArg (V c main_v22) (funext fun a => Fin.ext ?_)
  match a with
  | ⟨0, _⟩ => show win0_5.index t (0 : Fin 2) * 32 + 1 * (y 0).val = (y 0).val; omega
  | ⟨1, _⟩ => show win0_5.index t (1 : Fin 2) * 128 + 1 * (y 1).val = (y 1).val; omega

/-- Window 6's block at every point is its whole array. -/
theorem whole0_6 (c : Dev nD) (t : Fin cfg0.N) : iblk0 V c 6 t = V c main_arg4 := by
  funext y
  obtain ⟨f0, f1, f2, f3, f4, f5, f6, f7, f8, f9, f10, f11, f12, f13, f14, f15, f16, f17, f18, f19, f20, f21, f22⟩ := idx_facts0 t
  show V c main_arg4 (((cfg0.win 6).blk t).view.emb y) = V c main_arg4 y
  refine congrArg (V c main_arg4) (funext fun a => Fin.ext ?_)
  match a with
  | ⟨0, _⟩ => show win0_6.index t (0 : Fin 1) * 128 + 1 * (y 0).val = (y 0).val; omega

/-- Window 7's block at every point is its whole array. -/
theorem whole0_7 (c : Dev nD) (t : Fin cfg0.N) : iblk0 V c 7 t = V c main_arg5 := by
  funext y
  obtain ⟨f0, f1, f2, f3, f4, f5, f6, f7, f8, f9, f10, f11, f12, f13, f14, f15, f16, f17, f18, f19, f20, f21, f22⟩ := idx_facts0 t
  show V c main_arg5 (((cfg0.win 7).blk t).view.emb y) = V c main_arg5 y
  refine congrArg (V c main_arg5) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block at every point is its whole array. -/
theorem whole0_8 (c : Dev nD) (t : Fin cfg0.N) : iblk0 V c 8 t = V c main_arg6 := by
  funext y
  obtain ⟨f0, f1, f2, f3, f4, f5, f6, f7, f8, f9, f10, f11, f12, f13, f14, f15, f16, f17, f18, f19, f20, f21, f22⟩ := idx_facts0 t
  show V c main_arg6 (((cfg0.win 8).blk t).view.emb y) = V c main_arg6 y
  refine congrArg (V c main_arg6) (funext fun a => Fin.ext ?_)
  match a with
  | ⟨0, _⟩ => show win0_8.index t (0 : Fin 1) * 128 + 1 * (y 0).val = (y 0).val; omega

/-- Window 9's block at every point is its whole array. -/
theorem whole0_9 (c : Dev nD) (t : Fin cfg0.N) : iblk0 V c 9 t = V c main_arg7 := by
  funext y
  obtain ⟨f0, f1, f2, f3, f4, f5, f6, f7, f8, f9, f10, f11, f12, f13, f14, f15, f16, f17, f18, f19, f20, f21, f22⟩ := idx_facts0 t
  show V c main_arg7 (((cfg0.win 9).blk t).view.emb y) = V c main_arg7 y
  refine congrArg (V c main_arg7) (funext fun a => Fin.ext ?_)
  match a with
  | ⟨0, _⟩ => show win0_9.index t (0 : Fin 2) * 128 + 1 * (y 0).val = (y 0).val; omega
  | ⟨1, _⟩ => show win0_9.index t (1 : Fin 2) * 64 + 1 * (y 1).val = (y 1).val; omega

/-- Window 10's block at every point is its whole array. -/
theorem whole0_10 (c : Dev nD) (t : Fin cfg0.N) : iblk0 V c 10 t = V c main_arg8 := by
  funext y
  obtain ⟨f0, f1, f2, f3, f4, f5, f6, f7, f8, f9, f10, f11, f12, f13, f14, f15, f16, f17, f18, f19, f20, f21, f22⟩ := idx_facts0 t
  show V c main_arg8 (((cfg0.win 10).blk t).view.emb y) = V c main_arg8 y
  refine congrArg (V c main_arg8) (funext fun a => Fin.ext ?_)
  match a with
  | ⟨0, _⟩ => show win0_10.index t (0 : Fin 1) * 64 + 1 * (y 0).val = (y 0).val; omega

/-- Window 11's block at every point is its whole array. -/
theorem whole0_11 (c : Dev nD) (t : Fin cfg0.N) : iblk0 V c 11 t = V c main_arg9 := by
  funext y
  obtain ⟨f0, f1, f2, f3, f4, f5, f6, f7, f8, f9, f10, f11, f12, f13, f14, f15, f16, f17, f18, f19, f20, f21, f22⟩ := idx_facts0 t
  show V c main_arg9 (((cfg0.win 11).blk t).view.emb y) = V c main_arg9 y
  refine congrArg (V c main_arg9) (funext fun a => Fin.ext ?_)
  match a with
  | ⟨0, _⟩ => show win0_11.index t (0 : Fin 1) * 64 + 1 * (y 0).val = (y 0).val; omega

/-- Window 12's block at every point is its whole array. -/
theorem whole0_12 (c : Dev nD) (t : Fin cfg0.N) : iblk0 V c 12 t = V c main_arg10 := by
  funext y
  obtain ⟨f0, f1, f2, f3, f4, f5, f6, f7, f8, f9, f10, f11, f12, f13, f14, f15, f16, f17, f18, f19, f20, f21, f22⟩ := idx_facts0 t
  show V c main_arg10 (((cfg0.win 12).blk t).view.emb y) = V c main_arg10 y
  refine congrArg (V c main_arg10) (funext fun a => Fin.ext ?_)
  match a with
  | ⟨0, _⟩ => show win0_12.index t (0 : Fin 1) * 64 + 1 * (y 0).val = (y 0).val; omega

/-- What point t writes back is its block of the network's whole output. -/
theorem flushed0 (c : Dev nD) (t : Fin cfg0.N) :
    (dat0 V c).flushed 13 t = ((cfg0.win 13).blk t).view.read (Elt Ideal) (net0 V c) := by
  have ht : 4000 * t.val + 4000 ≤ 400000 := by have h1 := t.isLt; have h2 := npoints0; omega
  obtain ⟨f0, f1, f2, f3, f4, f5, f6, f7, f8, f9, f10, f11, f12, f13, f14, f15, f16, f17, f18, f19, f20, f21, f22⟩ := idx_facts0 t
  show (cfg0.win 13).cut (grid0.coords t) ((dat0 V c).after 13 t) = _
  rw [after0_13]
  unfold out0_13
  rw [View.canon_unit_zero hz2]
  simp only [View.ld_unit_zero (S := S4000x64) hz2, View.ld_unit_zero (S := S4000x32) hz2, View.ld_unit_zero (S := S64x128) hz2, View.ld_unit_zero (S := S32x128) hz2, View.ld_unit_zero (S := S128) hz1, View.ld_unit_zero (S := S128x128) hz2, View.ld_unit_zero (S := S128x64) hz2, View.ld_unit_zero (S := S64) hz1]
  funext j
  obtain ⟨p, l, rfl⟩ : ∃ (p : Fin 4000) (l : Fin 64), j = ix2 p l := ⟨j 0, j 1, eq_ix2 j⟩
  refine (pay0_tile ht (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _ _ _ (tile0_0 V c t ht) (tile0_1 V c t ht) (tile0_2 V c t ht) p l).trans ?_
  rw [whole0_3 V c t, whole0_4 V c t, whole0_5 V c t, whole0_6 V c t, whole0_7 V c t, whole0_8 V c t, whole0_9 V c t, whole0_10 V c t, whole0_11 V c t, whole0_12 V c t]
  show net0 V c (ix2 ⟨4000 * t.val + p.val, by omega⟩ l) = net0 V c (((cfg0.win 13).blk t).view.emb (ix2 p l))
  refine congrArg (net0 V c) (funext fun a => Fin.ext ?_)
  match a with
  | ⟨0, _⟩ => show 4000 * t.val + p.val = win0_13.index t (0 : Fin 2) * 4000 + 1 * p.val; omega
  | ⟨1, _⟩ => show l.val = win0_13.index t (1 : Fin 2) * 64 + 1 * l.val; omega

/-- The output's blocks cover it: row r lies in the block of point r / 4000. -/
theorem cover0 (i : S400000x64.Idx) :
    ∃ t : Fin cfg0.N, (cfg0.win 13).flush t = true ∧ i ∈ ((cfg0.win 13).blk t).view.set := by
  have h0 : (i 0).val < 400000 := (i 0).isLt
  have h1 : (i 1).val < 64 := (i 1).isLt
  obtain ⟨t, ht⟩ : ∃ t : Fin cfg0.N, t.val = (i 0).val / 4000 :=
    ⟨⟨(i 0).val / 4000, by rw [npoints0]; omega⟩, rfl⟩
  obtain ⟨f0, f1, f2, f3, f4, f5, f6, f7, f8, f9, f10, f11, f12, f13, f14, f15, f16, f17, f18, f19, f20, f21, f22⟩ := idx_facts0 t
  refine ⟨t, flush0_13 t, ?_⟩
  show i ∈ ((View.whole main_v23).slice (win0_13.rect t)).set
  rw [View.set_slice_whole, Rect.mem_set_unit]
  intro a
  match a with
  | ⟨0, _⟩ =>
    show win0_13.index t (0 : Fin 2) * 4000 ≤ (i 0).val ∧ (i 0).val < win0_13.index t (0 : Fin 2) * 4000 + 4000
    omega
  | ⟨1, _⟩ =>
    show win0_13.index t (1 : Fin 2) * 64 ≤ (i 1).val ∧ (i 1).val < win0_13.index t (1 : Fin 2) * 64 + 64
    omega

/-- After the region its output array is the network's whole output of the arrays the region found. -/
theorem final0 (c : Dev nD) : (dat0 V c).arrAt 13 cfg0.N = net0 V c :=
  (dat0 V c).arrAt_eq_of_cover 13 (net0 V c) (fun t _ => flushed0 V c t) (cover0)

/-! # Region 1 -/

/-- The printed index maps over the grid: a row-tiled window's block index is (t, 0), a resident window's is 0. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = 0
    ∧ win1_7.index t (1 : Fin 2) = 0
    ∧ win1_8.index t (0 : Fin 1) = 0
    ∧ win1_9.index t (0 : Fin 1) = 0
    ∧ win1_10.index t (0 : Fin 1) = 0
    ∧ win1_11.index t (0 : Fin 2) = t.val
    ∧ win1_11.index t (1 : Fin 2) = 0 :=
  (by decide +kernel : ∀ t : Fin grid1.N, _)

theorem npoints1 : cfg1.N = 10 := N_1

/-- Window 0's block at point t is rows [5000 t, 5000 t + 5000) of its array. -/
theorem tile1_0 (c : Dev nD) (t : Fin cfg1.N) (hr : 5000 * t.val + 5000 ≤ 50000) :
    IsTile (T := 5000) (M := 50000) (C := 64) (5000 * t.val) hr (iblk1 V c 0 t) (V c main_arg0) := by
  intro p l
  obtain ⟨f0, f1, f2, f3, f4, f5, f6, f7, f8, f9, f10, f11, f12, f13, f14, f15, f16, f17, f18⟩ := idx_facts1 t
  show V c main_arg0 (((cfg1.win 0).blk t).view.emb (ix2 p l)) = V c main_arg0 (ix2 ⟨5000 * t.val + p.val, by omega⟩ l)
  refine congrArg (V c main_arg0) (funext fun a => Fin.ext ?_)
  match a with
  | ⟨0, _⟩ => show win1_0.index t (0 : Fin 2) * 5000 + 1 * p.val = 5000 * t.val + p.val; omega
  | ⟨1, _⟩ => show win1_0.index t (1 : Fin 2) * 64 + 1 * l.val = l.val; omega

/-- Window 1's block at point t is rows [5000 t, 5000 t + 5000) of its array. -/
theorem tile1_1 (c : Dev nD) (t : Fin cfg1.N) (hr : 5000 * t.val + 5000 ≤ 50000) :
    IsTile (T := 5000) (M := 50000) (C := 64) (5000 * t.val) hr (iblk1 V c 1 t) (V c main_v26) := by
  intro p l
  obtain ⟨f0, f1, f2, f3, f4, f5, f6, f7, f8, f9, f10, f11, f12, f13, f14, f15, f16, f17, f18⟩ := idx_facts1 t
  show V c main_v26 (((cfg1.win 1).blk t).view.emb (ix2 p l)) = V c main_v26 (ix2 ⟨5000 * t.val + p.val, by omega⟩ l)
  refine congrArg (V c main_v26) (funext fun a => Fin.ext ?_)
  match a with
  | ⟨0, _⟩ => show win1_1.index t (0 : Fin 2) * 5000 + 1 * p.val = 5000 * t.val + p.val; omega
  | ⟨1, _⟩ => show win1_1.index t (1 : Fin 2) * 64 + 1 * l.val = l.val; omega

/-- Window 2's block at every point is its whole array. -/
theorem whole1_2 (c : Dev nD) (t : Fin cfg1.N) : iblk1 V c 2 t = V c main_v27 := by
  funext y
  obtain ⟨f0, f1, f2, f3, f4, f5, f6, f7, f8, f9, f10, f11, f12, f13, f14, f15, f16, f17, f18⟩ := idx_facts1 t
  show V c main_v27 (((cfg1.win 2).blk t).view.emb y) = V c main_v27 y
  refine congrArg (V c main_v27) (funext fun a => Fin.ext ?_)
  match a with
  | ⟨0, _⟩ => show win1_2.index t (0 : Fin 2) * 64 + 1 * (y 0).val = (y 0).val; omega
  | ⟨1, _⟩ => show win1_2.index t (1 : Fin 2) * 128 + 1 * (y 1).val = (y 1).val; omega

/-- Window 3's block at every point is its whole array. -/
theorem whole1_3 (c : Dev nD) (t : Fin cfg1.N) : iblk1 V c 3 t = V c main_v28 := by
  funext y
  obtain ⟨f0, f1, f2, f3, f4, f5, f6, f7, f8, f9, f10, f11, f12, f13, f14, f15, f16, f17, f18⟩ := idx_facts1 t
  show V c main_v28 (((cfg1.win 3).blk t).view.emb y) = V c main_v28 y
  refine congrArg (V c main_v28) (funext fun a => Fin.ext ?_)
  match a with
  | ⟨0, _⟩ => show win1_3.index t (0 : Fin 2) * 64 + 1 * (y 0).val = (y 0).val; omega
  | ⟨1, _⟩ => show win1_3.index t (1 : Fin 2) * 128 + 1 * (y 1).val = (y 1).val; omega

/-- Window 4's block at every point is its whole array. -/
theorem whole1_4 (c : Dev nD) (t : Fin cfg1.N) : iblk1 V c 4 t = V c main_arg12 := by
  funext y
  obtain ⟨f0, f1, f2, f3, f4, f5, f6, f7, f8, f9, f10, f11, f12, f13, f14, f15, f16, f17, f18⟩ := idx_facts1 t
  show V c main_arg12 (((cfg1.win 4).blk t).view.emb y) = V c main_arg12 y
  refine congrArg (V c main_arg12) (funext fun a => Fin.ext ?_)
  match a with
  | ⟨0, _⟩ => show win1_4.index t (0 : Fin 1) * 128 + 1 * (y 0).val = (y 0).val; omega

/-- Window 5's block at every point is its whole array. -/
theorem whole1_5 (c : Dev nD) (t : Fin cfg1.N) : iblk1 V c 5 t = V c main_arg13 := by
  funext y
  obtain ⟨f0, f1, f2, f3, f4, f5, f6, f7, f8, f9, f10, f11, f12, f13, f14, f15, f16, f17, f18⟩ := idx_facts1 t
  show V c main_arg13 (((cfg1.win 5).blk t).view.emb y) = V c main_arg13 y
  refine congrArg (V c main_arg13) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6's block at every point is its whole array. -/
theorem whole1_6 (c : Dev nD) (t : Fin cfg1.N) : iblk1 V c 6 t = V c main_arg14 := by
  funext y
  obtain ⟨f0, f1, f2, f3, f4, f5, f6, f7, f8, f9, f10, f11, f12, f13, f14, f15, f16, f17, f18⟩ := idx_facts1 t
  show V c main_arg14 (((cfg1.win 6).blk t).view.emb y) = V c main_arg14 y
  refine congrArg (V c main_arg14) (funext fun a => Fin.ext ?_)
  match a with
  | ⟨0, _⟩ => show win1_6.index t (0 : Fin 1) * 128 + 1 * (y 0).val = (y 0).val; omega

/-- Window 7's block at every point is its whole array. -/
theorem whole1_7 (c : Dev nD) (t : Fin cfg1.N) : iblk1 V c 7 t = V c main_arg15 := by
  funext y
  obtain ⟨f0, f1, f2, f3, f4, f5, f6, f7, f8, f9, f10, f11, f12, f13, f14, f15, f16, f17, f18⟩ := idx_facts1 t
  show V c main_arg15 (((cfg1.win 7).blk t).view.emb y) = V c main_arg15 y
  refine congrArg (V c main_arg15) (funext fun a => Fin.ext ?_)
  match a with
  | ⟨0, _⟩ => show win1_7.index t (0 : Fin 2) * 128 + 1 * (y 0).val = (y 0).val; omega
  | ⟨1, _⟩ => show win1_7.index t (1 : Fin 2) * 64 + 1 * (y 1).val = (y 1).val; omega

/-- Window 8's block at every point is its whole array. -/
theorem whole1_8 (c : Dev nD) (t : Fin cfg1.N) : iblk1 V c 8 t = V c main_arg16 := by
  funext y
  obtain ⟨f0, f1, f2, f3, f4, f5, f6, f7, f8, f9, f10, f11, f12, f13, f14, f15, f16, f17, f18⟩ := idx_facts1 t
  show V c main_arg16 (((cfg1.win 8).blk t).view.emb y) = V c main_arg16 y
  refine congrArg (V c main_arg16) (funext fun a => Fin.ext ?_)
  match a with
  | ⟨0, _⟩ => show win1_8.index t (0 : Fin 1) * 64 + 1 * (y 0).val = (y 0).val; omega

/-- Window 9's block at every point is its whole array. -/
theorem whole1_9 (c : Dev nD) (t : Fin cfg1.N) : iblk1 V c 9 t = V c main_arg17 := by
  funext y
  obtain ⟨f0, f1, f2, f3, f4, f5, f6, f7, f8, f9, f10, f11, f12, f13, f14, f15, f16, f17, f18⟩ := idx_facts1 t
  show V c main_arg17 (((cfg1.win 9).blk t).view.emb y) = V c main_arg17 y
  refine congrArg (V c main_arg17) (funext fun a => Fin.ext ?_)
  match a with
  | ⟨0, _⟩ => show win1_9.index t (0 : Fin 1) * 64 + 1 * (y 0).val = (y 0).val; omega

/-- Window 10's block at every point is its whole array. -/
theorem whole1_10 (c : Dev nD) (t : Fin cfg1.N) : iblk1 V c 10 t = V c main_arg18 := by
  funext y
  obtain ⟨f0, f1, f2, f3, f4, f5, f6, f7, f8, f9, f10, f11, f12, f13, f14, f15, f16, f17, f18⟩ := idx_facts1 t
  show V c main_arg18 (((cfg1.win 10).blk t).view.emb y) = V c main_arg18 y
  refine congrArg (V c main_arg18) (funext fun a => Fin.ext ?_)
  match a with
  | ⟨0, _⟩ => show win1_10.index t (0 : Fin 1) * 64 + 1 * (y 0).val = (y 0).val; omega

/-- What point t writes back is its block of the network's whole output. -/
theorem flushed1 (c : Dev nD) (t : Fin cfg1.N) :
    (dat1 V c).flushed 11 t = ((cfg1.win 11).blk t).view.read (Elt Ideal) (net1 V c) := by
  have ht : 5000 * t.val + 5000 ≤ 50000 := by have h1 := t.isLt; have h2 := npoints1; omega
  obtain ⟨f0, f1, f2, f3, f4, f5, f6, f7, f8, f9, f10, f11, f12, f13, f14, f15, f16, f17, f18⟩ := idx_facts1 t
  show (cfg1.win 11).cut (grid1.coords t) ((dat1 V c).after 11 t) = _
  rw [after1_11]
  unfold out1_11
  rw [View.canon_unit_zero hz2]
  simp only [View.ld_unit_zero (S := S5000x64) hz2, View.ld_unit_zero (S := S64x128) hz2, View.ld_unit_zero (S := S128) hz1, View.ld_unit_zero (S := S128x128) hz2, View.ld_unit_zero (S := S128x64) hz2, View.ld_unit_zero (S := S64) hz1]
  funext j
  obtain ⟨p, l, rfl⟩ : ∃ (p : Fin 5000) (l : Fin 64), j = ix2 p l := ⟨j 0, j 1, eq_ix2 j⟩
  refine (pay1_tile ht (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _ _ (tile1_0 V c t ht) (tile1_1 V c t ht) p l).trans ?_
  rw [whole1_2 V c t, whole1_3 V c t, whole1_4 V c t, whole1_5 V c t, whole1_6 V c t, whole1_7 V c t, whole1_8 V c t, whole1_9 V c t, whole1_10 V c t]
  show net1 V c (ix2 ⟨5000 * t.val + p.val, by omega⟩ l) = net1 V c (((cfg1.win 11).blk t).view.emb (ix2 p l))
  refine congrArg (net1 V c) (funext fun a => Fin.ext ?_)
  match a with
  | ⟨0, _⟩ => show 5000 * t.val + p.val = win1_11.index t (0 : Fin 2) * 5000 + 1 * p.val; omega
  | ⟨1, _⟩ => show l.val = win1_11.index t (1 : Fin 2) * 64 + 1 * l.val; omega

/-- The output's blocks cover it: row r lies in the block of point r / 5000. -/
theorem cover1 (i : S50000x64.Idx) :
    ∃ t : Fin cfg1.N, (cfg1.win 11).flush t = true ∧ i ∈ ((cfg1.win 11).blk t).view.set := by
  have h0 : (i 0).val < 50000 := (i 0).isLt
  have h1 : (i 1).val < 64 := (i 1).isLt
  obtain ⟨t, ht⟩ : ∃ t : Fin cfg1.N, t.val = (i 0).val / 5000 :=
    ⟨⟨(i 0).val / 5000, by rw [npoints1]; omega⟩, rfl⟩
  obtain ⟨f0, f1, f2, f3, f4, f5, f6, f7, f8, f9, f10, f11, f12, f13, f14, f15, f16, f17, f18⟩ := idx_facts1 t
  refine ⟨t, flush1_11 t, ?_⟩
  show i ∈ ((View.whole main_v29).slice (win1_11.rect t)).set
  rw [View.set_slice_whole, Rect.mem_set_unit]
  intro a
  match a with
  | ⟨0, _⟩ =>
    show win1_11.index t (0 : Fin 2) * 5000 ≤ (i 0).val ∧ (i 0).val < win1_11.index t (0 : Fin 2) * 5000 + 5000
    omega
  | ⟨1, _⟩ =>
    show win1_11.index t (1 : Fin 2) * 64 ≤ (i 1).val ∧ (i 1).val < win1_11.index t (1 : Fin 2) * 64 + 64
    omega

/-- After the region its output array is the network's whole output of the arrays the region found. -/
theorem final1 (c : Dev nD) : (dat1 V c).arrAt 11 cfg1.N = net1 V c :=
  (dat1 V c).arrAt_eq_of_cover 11 (net1 V c) (fun t _ => flushed1 V c t) (cover1)

end Cert.KernelIdeal.RegionVal

end
-- ==== Proof.HostSide.lean ====
/-
  What the two regions find, and what the run leaves in the two result buffers, in terms of the launch memory.

  Before the edge region the host operations take the two rows of the edge list (sources and destinations), turn a
  negative node index i into i + 50000, gather the rows of the node features at the sources and at the destinations,
  and cut the first weight matrix into its three row blocks (rows 0–63 for the source features, 64–127 for the
  destination features, 128–159 for the edge attributes). The edge region leaves the edge network's output, the
  messages. Between the regions the host adds every message into the row of its destination node, starting from zeros,
  and cuts the node network's first weight matrix into two row blocks. The node region leaves the node network's output.
  No operation and no region writes an argument, or writes a result after it was produced.
-/
import proofs.«176863_j74174085202606_2_alg».proof.Proof.Gen.KernelIdeal.Frame
import proofs.«176863_j74174085202606_2_alg».proof.Proof.RegionVal
import Idealize.ShloMosaic.Lib.StableHlo.Run

set_option maxRecDepth 16384

noncomputable section

namespace Cert.KernelIdeal.HostVal

open Cert.KernelIdeal Cert.KernelIdeal.Gen Cert.KernelIdeal.RegionVal
open Idealize.ShloMosaic Idealize.ShloMosaic.TcCoe Idealize.SL.Sem Idealize.ShloMosaic.StableHlo
open Cert.Spec Cert.Net

/-! ## The host operations' values as functions of the arguments -/

abbrev EdgeList : Type := (⟨S2x400000, .i32⟩ : BufTy).Contents (Elt Ideal)
abbrev IdxRow : Type := (⟨S400000, .i32⟩ : BufTy).Contents (Elt Ideal)
abbrev IdxCol : Type := (⟨S400000x1, .i32⟩ : BufTy).Contents (Elt Ideal)

/-- The sources: row 0 of the edge list. -/
def srcRow (e : EdgeList) : IdxRow :=
  shapeCast _ (extractStridedSlice S1x400000 ![0, 0] e slices_S2x400000_S1x400000_0_0) shapeCasts_S1x400000_S400000
/-- The destinations: row 1 of the edge list. -/
def dstRow (e : EdgeList) : IdxRow :=
  shapeCast _ (extractStridedSlice S1x400000 ![1, 0] e slices_S2x400000_S1x400000_1_0) shapeCasts_S1x400000_S400000
/-- A negative index counted from the end: i < 0 ? i + 50000 : i. -/
def wrap (r : IdxRow) : IdxRow :=
  select (cmpi .slt r (broadcastInDim S400000 ![] bcast_S_S400000 (constantI S_ 32 0#32)))
    (addi r (broadcastInDim S400000 ![] bcast_S_S400000 (constantI S_ 32 50000#32))) r
/-- A row of indices as a column. -/
def col (r : IdxRow) : IdxCol := broadcastInDim S400000x1 ![0] bcast_S400000_S400000x1_0 r
/-- The node features' rows at the given (wrapped) indices. -/
def rowsAt (h : (⟨S50000x64, .f32⟩ : BufTy).Contents (Elt Ideal)) (r : IdxRow) : (⟨S400000x64, .bf16⟩ : BufTy).Contents (Elt Ideal) :=
  Host.gather gather_S50000x64_S400000x1_S400000x64_1_0_n_n_0_1_164 (truncf (F := Ideal) .bf16 h bitsLt_bf16_f32) (col (wrap r))
/-- Every message added into the row of its destination, from zeros. -/
def sumInto (d : IdxRow) (msg : (⟨S400000x64, .f32⟩ : BufTy).Contents (Elt Ideal)) : (⟨S50000x64, .f32⟩ : BufTy).Contents (Elt Ideal) :=
  Host.scatterAdd scatter_S50000x64_S400000x1_S400000x64_1_0_0_1
    (broadcastInDim S50000x64 ![] bcast_S_S50000x64 (constant (F := Ideal) S_ .f32 0x00000000#32)) (col d) msg

variable (m : (ℓ : Loc nD τ sig) → Buf (Elt Ideal) ℓ) (ρ : Dev nD → PrngReg)

/-! ## At the edge region's entry -/

theorem V1_v11 (c : Dev nD) : (V1 m ρ c main_v11 : S400000x64.Idx → EReal) = rowsAt (m ((c : Thread nD τ).loc main_arg0)) (srcRow (m ((c : Thread nD τ).loc main_arg1))) := by
  show StableHlo.after hostOps0 (W0 m ρ c) (Proc.devRef .tc main_v11) = _
  after_results <;> rfl
set_option maxHeartbeats 2000000 in
theorem V1_v18 (c : Dev nD) : (V1 m ρ c main_v18 : S400000x64.Idx → EReal) = rowsAt (m ((c : Thread nD τ).loc main_arg0)) (dstRow (m ((c : Thread nD τ).loc main_arg1))) := by
  show StableHlo.after hostOps0 (W0 m ρ c) (Proc.devRef .tc main_v18) = _
  after_results <;> rfl
theorem V1_v19 (c : Dev nD) : (V1 m ρ c main_v19 : S400000x32.Idx → EReal) = (m ((c : Thread nD τ).loc main_arg2)) := by
  show StableHlo.after hostOps0 (W0 m ρ c) (Proc.devRef .tc main_v19) = _
  after_results <;> rfl
theorem V1_v20 (c : Dev nD) : (V1 m ρ c main_v20 : S64x128.Idx → EReal) = extractStridedSlice S64x128 ![0, 0] (m ((c : Thread nD τ).loc main_arg3)) slices_S160x128_S64x128_0_0 := by
  show StableHlo.after hostOps0 (W0 m ρ c) (Proc.devRef .tc main_v20) = _
  after_results <;> rfl
theorem V1_v21 (c : Dev nD) : (V1 m ρ c main_v21 : S64x128.Idx → EReal) = extractStridedSlice S64x128 ![64, 0] (m ((c : Thread nD τ).loc main_arg3)) slices_S160x128_S64x128_64_0 := by
  show StableHlo.after hostOps0 (W0 m ρ c) (Proc.devRef .tc main_v21) = _
  after_results <;> rfl
theorem V1_v22 (c : Dev nD) : (V1 m ρ c main_v22 : S32x128.Idx → EReal) = extractStridedSlice S32x128 ![128, 0] (m ((c : Thread nD τ).loc main_arg3)) slices_S160x128_S32x128_128_0 := by
  show StableHlo.after hostOps0 (W0 m ρ c) (Proc.devRef .tc main_v22) = _
  after_results <;> rfl
theorem W1_v3 (c : Dev nD) : (W1 m ρ c (Proc.devRef .tc main_v3) : S400000.Idx → BitVec 32) = dstRow (m ((c : Thread nD τ).loc main_arg1)) := by
  show StableHlo.after hostOps0 (W0 m ρ c) (Proc.devRef .tc main_v3) = _
  after_results <;> rfl
theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results <;> rfl
theorem W1_arg11 (c : Dev nD) : W1 m ρ c (Proc.devRef .tc main_arg11) = m ((c : Thread nD τ).loc main_arg11) := by
  show StableHlo.after hostOps0 (W0 m ρ c) (Proc.devRef .tc main_arg11) = _
  after_results <;> rfl
theorem W1_arg12 (c : Dev nD) : W1 m ρ c (Proc.devRef .tc main_arg12) = m ((c : Thread nD τ).loc main_arg12) := by
  show StableHlo.after hostOps0 (W0 m ρ c) (Proc.devRef .tc main_arg12) = _
  after_results <;> rfl
theorem W1_arg13 (c : Dev nD) : W1 m ρ c (Proc.devRef .tc main_arg13) = m ((c : Thread nD τ).loc main_arg13) := by
  show StableHlo.after hostOps0 (W0 m ρ c) (Proc.devRef .tc main_arg13) = _
  after_results <;> rfl
theorem W1_arg14 (c : Dev nD) : W1 m ρ c (Proc.devRef .tc main_arg14) = m ((c : Thread nD τ).loc main_arg14) := by
  show StableHlo.after hostOps0 (W0 m ρ c) (Proc.devRef .tc main_arg14) = _
  after_results <;> rfl
theorem W1_arg15 (c : Dev nD) : W1 m ρ c (Proc.devRef .tc main_arg15) = m ((c : Thread nD τ).loc main_arg15) := by
  show StableHlo.after hostOps0 (W0 m ρ c) (Proc.devRef .tc main_arg15) = _
  after_results <;> rfl
theorem W1_arg16 (c : Dev nD) : W1 m ρ c (Proc.devRef .tc main_arg16) = m ((c : Thread nD τ).loc main_arg16) := by
  show StableHlo.after hostOps0 (W0 m ρ c) (Proc.devRef .tc main_arg16) = _
  after_results <;> rfl
theorem W1_arg17 (c : Dev nD) : W1 m ρ c (Proc.devRef .tc main_arg17) = m ((c : Thread nD τ).loc main_arg17) := by
  show StableHlo.after hostOps0 (W0 m ρ c) (Proc.devRef .tc main_arg17) = _
  after_results <;> rfl
theorem W1_arg18 (c : Dev nD) : W1 m ρ c (Proc.devRef .tc main_arg18) = m ((c : Thread nD τ).loc main_arg18) := by
  show StableHlo.after hostOps0 (W0 m ρ c) (Proc.devRef .tc main_arg18) = _
  after_results <;> rfl

/-- The messages: the edge network of the gathered node features, the edge attributes and the edge weights. -/
def msgOf (c : Dev nD) : Mat 400000 64 :=
  msgNet 0x42800000#32 (rowsAt (m ((c : Thread nD τ).loc main_arg0)) (srcRow (m ((c : Thread nD τ).loc main_arg1)))) (rowsAt (m ((c : Thread nD τ).loc main_arg0)) (dstRow (m ((c : Thread nD τ).loc main_arg1))))
    (m ((c : Thread nD τ).loc main_arg2))
    (extractStridedSlice S64x128 ![0, 0] (m ((c : Thread nD τ).loc main_arg3)) slices_S160x128_S64x128_0_0)
    (extractStridedSlice S64x128 ![64, 0] (m ((c : Thread nD τ).loc main_arg3)) slices_S160x128_S64x128_64_0)
    (extractStridedSlice S32x128 ![128, 0] (m ((c : Thread nD τ).loc main_arg3)) slices_S160x128_S32x128_128_0)
    (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem net0_eq (c : Dev nD) : net0 (V1 m ρ) c = msgOf m c := by
  unfold net0 msgOf
  rw [V1_v11, V1_v18, V1_v19, V1_v20, V1_v21, V1_v22]
  rw [show V1 m ρ c main_arg4 = _ from W1_arg4 m ρ c, show V1 m ρ c main_arg5 = _ from W1_arg5 m ρ c,
    show V1 m ρ c main_arg6 = _ from W1_arg6 m ρ c, show V1 m ρ c main_arg7 = _ from W1_arg7 m ρ c,
    show V1 m ρ c main_arg8 = _ from W1_arg8 m ρ c, show V1 m ρ c main_arg9 = _ from W1_arg9 m ρ c,
    show V1 m ρ c main_arg10 = _ from W1_arg10 m ρ c]

/-! ## After the edge region, and at the node region's entry -/

/-- The messages' buffer after the edge region. -/
theorem W2_v23 (c : Dev nD) : W2 m ρ c (Proc.devRef .tc main_v23) = msgOf m c :=
  (W2_arr m ρ c 13).trans ((final0 (V1 m ρ) c).trans (net0_eq m ρ c))

theorem W2_v3 (c : Dev nD) : (W2 m ρ c (Proc.devRef .tc main_v3) : S400000.Idx → BitVec 32) = dstRow (m ((c : Thread nD τ).loc main_arg1)) :=
  (W2_of_ne m ρ c main_v3 (by decide)).trans (W1_v3 m ρ c)
theorem W2_arg0 (c : Dev nD) : W2 m ρ c (Proc.devRef .tc main_arg0) = m ((c : Thread nD τ).loc main_arg0) :=
  (W2_of_ne m ρ c main_arg0 (by decide)).trans (W1_arg0 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W2_arg16 (c : Dev nD) : W2 m ρ c (Proc.devRef .tc main_arg16) = m ((c : Thread nD τ).loc main_arg16) :=
  (W2_of_ne m ρ c main_arg16 (by decide)).trans (W1_arg16 m ρ c)
theorem W2_arg17 (c : Dev nD) : W2 m ρ c (Proc.devRef .tc main_arg17) = m ((c : Thread nD τ).loc main_arg17) :=
  (W2_of_ne m ρ c main_arg17 (by decide)).trans (W1_arg17 m ρ c)
theorem W2_arg18 (c : Dev nD) : W2 m ρ c (Proc.devRef .tc main_arg18) = m ((c : Thread nD τ).loc main_arg18) :=
  (W2_of_ne m ρ c main_arg18 (by decide)).trans (W1_arg18 m ρ c)

theorem V3_v26 (c : Dev nD) : (V3 m ρ c main_v26 : S50000x64.Idx → EReal) = sumInto (dstRow (m ((c : Thread nD τ).loc main_arg1))) (msgOf m c) := by
  show StableHlo.after hostOps1 (W2 m ρ c) (Proc.devRef .tc main_v26) = _
  after_results
  rw [W2_v3, W2_v23]
  rfl
theorem V3_v27 (c : Dev nD) : (V3 m ρ c main_v27 : S64x128.Idx → EReal) = extractStridedSlice S64x128 ![0, 0] (m ((c : Thread nD τ).loc main_arg11)) slices_S128x128_S64x128_0_0 := by
  show StableHlo.after hostOps1 (W2 m ρ c) (Proc.devRef .tc main_v27) = _
  after_results
  rw [W2_arg11]
theorem V3_v28 (c : Dev nD) : (V3 m ρ c main_v28 : S64x128.Idx → EReal) = extractStridedSlice S64x128 ![64, 0] (m ((c : Thread nD τ).loc main_arg11)) slices_S128x128_S64x128_64_0 := by
  show StableHlo.after hostOps1 (W2 m ρ c) (Proc.devRef .tc main_v28) = _
  after_results
  rw [W2_arg11]
theorem V3_arg0 (c : Dev nD) : V3 m ρ c main_arg0 = m ((c : Thread nD τ).loc main_arg0) := by
  show StableHlo.after hostOps1 (W2 m ρ c) (Proc.devRef .tc main_arg0) = _
  after_results
  exact W2_arg0 m ρ c
theorem V3_arg12 (c : Dev nD) : V3 m ρ c main_arg12 = m ((c : Thread nD τ).loc main_arg12) := by
  show StableHlo.after hostOps1 (W2 m ρ c) (Proc.devRef .tc main_arg12) = _
  after_results
  exact W2_arg12 m ρ c
theorem V3_arg13 (c : Dev nD) : V3 m ρ c main_arg13 = m ((c : Thread nD τ).loc main_arg13) := by
  show StableHlo.after hostOps1 (W2 m ρ c) (Proc.devRef .tc main_arg13) = _
  after_results
  exact W2_arg13 m ρ c
theorem V3_arg14 (c : Dev nD) : V3 m ρ c main_arg14 = m ((c : Thread nD τ).loc main_arg14) := by
  show StableHlo.after hostOps1 (W2 m ρ c) (Proc.devRef .tc main_arg14) = _
  after_results
  exact W2_arg14 m ρ c
theorem V3_arg15 (c : Dev nD) : V3 m ρ c main_arg15 = m ((c : Thread nD τ).loc main_arg15) := by
  show StableHlo.after hostOps1 (W2 m ρ c) (Proc.devRef .tc main_arg15) = _
  after_results
  exact W2_arg15 m ρ c
theorem V3_arg16 (c : Dev nD) : V3 m ρ c main_arg16 = m ((c : Thread nD τ).loc main_arg16) := by
  show StableHlo.after hostOps1 (W2 m ρ c) (Proc.devRef .tc main_arg16) = _
  after_results
  exact W2_arg16 m ρ c
theorem V3_arg17 (c : Dev nD) : V3 m ρ c main_arg17 = m ((c : Thread nD τ).loc main_arg17) := by
  show StableHlo.after hostOps1 (W2 m ρ c) (Proc.devRef .tc main_arg17) = _
  after_results
  exact W2_arg17 m ρ c
theorem V3_arg18 (c : Dev nD) : V3 m ρ c main_arg18 = m ((c : Thread nD τ).loc main_arg18) := by
  show StableHlo.after hostOps1 (W2 m ρ c) (Proc.devRef .tc main_arg18) = _
  after_results
  exact W2_arg18 m ρ c

/-- The updated node features: the node network of the node features, the summed messages and the node weights. -/
def updOf (c : Dev nD) : Mat 50000 64 :=
  updNet 0x42800000#32 (m ((c : Thread nD τ).loc main_arg0)) (sumInto (dstRow (m ((c : Thread nD τ).loc main_arg1))) (msgOf m c))
    (extractStridedSlice S64x128 ![0, 0] (m ((c : Thread nD τ).loc main_arg11)) slices_S128x128_S64x128_0_0)
    (extractStridedSlice S64x128 ![64, 0] (m ((c : Thread nD τ).loc main_arg11)) slices_S128x128_S64x128_64_0)
    (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

theorem net1_eq (c : Dev nD) : net1 (V3 m ρ) c = updOf m c := by
  unfold net1 updOf
  rw [V3_v26, V3_v27, V3_v28, V3_arg0, V3_arg12, V3_arg13, V3_arg14, V3_arg15, V3_arg16, V3_arg17, V3_arg18]

/-! ## The two result buffers at the last boundary -/

/-- The messages are not touched after the edge region. -/
theorem W4_v23 (c : Dev nD) : W4 m ρ c (Proc.devRef .tc main_v23) = msgOf m c := by
  refine (W4_of_ne m ρ c main_v23 (by decide)).trans ?_
  refine Eq.trans ?_ (W2_v23 m ρ c)
  show StableHlo.after hostOps1 (W2 m ρ c) (Proc.devRef .tc main_v23) = _
  after_results <;> rfl

/-- The updated node features are what the node region leaves. -/
theorem W4_v29 (c : Dev nD) : W4 m ρ c (Proc.devRef .tc main_v29) = updOf m c :=
  (W4_arr m ρ c 11).trans ((final1 (V3 m ρ) c).trans (net1_eq m ρ c))

end Cert.KernelIdeal.HostVal

end
-- ==== Proof.RefSide.lean ====
/-
  The reference, regrouped as the same layers.

  The reference joins the gathered source features, the gathered destination features and the edge attributes side by
  side (160 columns) and multiplies the joined array with the whole first weight matrix; likewise the node features and
  the summed messages (128 columns) in the node network. A product with a joined array is the sum of the pieces'
  products with the matching row blocks of the weight matrix, so the reference's first layers are the sums of two or
  three products that the kernel computes, over the same row blocks 0–63, 64–127 and 128–159. Everything after the
  first layer is, operation for operation, max(·, 0), dense, max(·, 0), dense, layer normalisation; the reference's
  square is the product of its operand with itself, and its mean is the row sum divided by 64.
-/
import proofs.«176863_j74174085202606_2_alg».proof.Proof.Gen.ReferenceIdeal.Read
import proofs.«176863_j74174085202606_2_alg».proof.Proof.TileNet

set_option maxRecDepth 16384

noncomputable section

namespace Cert.ReferenceIdeal.RefVal

open Cert.ReferenceIdeal Cert.ReferenceIdeal.Gen Cert.ReferenceIdeal.Read
open Idealize.ShloMosaic Idealize.ShloMosaic.TcCoe Idealize.SL.Sem
open Cert.Spec Cert.Split Cert.Net

theorem sl160_0 : (⟨2, ![160, 128]⟩ : Shape).Slices ![0, 0] ⟨2, ![64, 128]⟩ := by decide
theorem sl160_64 : (⟨2, ![160, 128]⟩ : Shape).Slices ![64, 0] ⟨2, ![64, 128]⟩ := by decide
theorem sl160_128 : (⟨2, ![160, 128]⟩ : Shape).Slices ![128, 0] ⟨2, ![32, 128]⟩ := by decide
theorem sl128_0 : (⟨2, ![128, 128]⟩ : Shape).Slices ![0, 0] ⟨2, ![64, 128]⟩ := by decide
theorem sl128_64 : (⟨2, ![128, 128]⟩ : Shape).Slices ![64, 0] ⟨2, ![64, 128]⟩ := by decide

variable (x0 : (⟨S50000x64, .f32⟩ : BufTy).Contents (Elt Ideal)) (x1 : (⟨S2x400000, .i32⟩ : BufTy).Contents (Elt Ideal)) (x2 : (⟨S400000x32, .f32⟩ : BufTy).Contents (Elt Ideal))
  (x3 : (⟨S160x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x64, .f32⟩ : BufTy).Contents (Elt Ideal)) (x8 x9 x10 : (⟨S64, .f32⟩ : BufTy).Contents (Elt Ideal))
  (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))
  (x15 : (⟨S128x64, .f32⟩ : BufTy).Contents (Elt Ideal)) (x16 x17 x18 : (⟨S64, .f32⟩ : BufTy).Contents (Elt Ideal))

/-! ## The edge network -/

/-- The first layer: the joined array times the first weight matrix, plus the bias. -/
theorem edge_first : val_main_v22 (F := Ideal) x0 x1 x2 x3 x4 = dense (val_main_v18 (F := Ideal) x0 x1 x2) x3 x4 := rfl

/-- The rest of the edge network, operation for operation. -/
theorem edge_rest : val_main_v56 (F := Ideal) x0 x1 x2 x3 x4 x5 x6 x7 x8 x9 x10
    = tail 0x42800000#32 (val_main_v22 (F := Ideal) x0 x1 x2 x3 x4) x5 x6 x7 x8 x9 x10 := rfl

/-- The reference's messages are the edge network of the gathered rows, the edge attributes and the weight's row blocks. -/
theorem edge_eq : val_main_v56 (F := Ideal) x0 x1 x2 x3 x4 x5 x6 x7 x8 x9 x10
    = msgNet 0x42800000#32 (val_main_v10 (F := Ideal) x0 x1) (val_main_v17 (F := Ideal) x0 x1) x2
        (extractStridedSlice ⟨2, ![64, 128]⟩ ![0, 0] x3 sl160_0) (extractStridedSlice ⟨2, ![64, 128]⟩ ![64, 0] x3 sl160_64)
        (extractStridedSlice ⟨2, ![32, 128]⟩ ![128, 0] x3 sl160_128) x4 x5 x6 x7 x8 x9 x10 := by
  rw [edge_rest, edge_first]
  unfold msgNet
  refine congrArg (fun X => tail 0x42800000#32 X x5 x6 x7 x8 x9 x10) ?_
  unfold val_main_v18
  exact dense_cat3 (M := 400000) (A := 64) (B := 64) (C := 32) (K := 160) (N := 128) rfl
    (val_main_v10 (F := Ideal) x0 x1) (val_main_v17 (F := Ideal) x0 x1) x2 x3 x4 _ 64 128 rfl rfl sl160_0 sl160_64 sl160_128

/-! ## The node network -/

/-- The first layer: the joined array times the first weight matrix, plus the bias. -/
theorem node_first : val_main_v64 (F := Ideal) x0 x1 x2 x3 x4 x5 x6 x7 x8 x9 x10 x11 x12 = dense (val_main_v60 (F := Ideal) x0 x1 x2 x3 x4 x5 x6 x7 x8 x9 x10) x11 x12 := rfl

/-- The rest of the node network, operation for operation, and the node's own features added. -/
theorem node_rest : val_main_v99 (F := Ideal) x0 x1 x2 x3 x4 x5 x6 x7 x8 x9 x10 x11 x12 x13 x14 x15 x16 x17 x18
    = addf (tail 0x42800000#32 (val_main_v64 (F := Ideal) x0 x1 x2 x3 x4 x5 x6 x7 x8 x9 x10 x11 x12) x13 x14 x15 x16 x17 x18) x0 := rfl

/-- The reference's updated node features are the node network of the node features, the summed messages and the
    weight's row blocks. -/
theorem node_eq : val_main_v99 (F := Ideal) x0 x1 x2 x3 x4 x5 x6 x7 x8 x9 x10 x11 x12 x13 x14 x15 x16 x17 x18
    = updNet 0x42800000#32 x0 (val_main_v59 (F := Ideal) x0 x1 x2 x3 x4 x5 x6 x7 x8 x9 x10)
        (extractStridedSlice ⟨2, ![64, 128]⟩ ![0, 0] x11 sl128_0) (extractStridedSlice ⟨2, ![64, 128]⟩ ![64, 0] x11 sl128_64)
        x12 x13 x14 x15 x16 x17 x18 := by
  rw [node_rest, node_first]
  unfold updNet
  refine congrArg (fun X => addf (tail 0x42800000#32 X x13 x14 x15 x16 x17 x18) x0) ?_
  unfold val_main_v60
  exact dense_cat2 (M := 50000) (A := 64) (B := 64) (K := 128) (N := 128) rfl
    x0 (val_main_v59 (F := Ideal) x0 x1 x2 x3 x4 x5 x6 x7 x8 x9 x10) x11 x12 _ 64 rfl sl128_0 sl128_64

end Cert.ReferenceIdeal.RefVal

end
-- ==== Proof.Claims.lean ====
/-
  The five claims.

  Both programs compute, on the extended reals: the messages — the edge network (three products with the row blocks of
  the first weight matrix added, a bias, then max(·, 0), dense, max(·, 0), dense, layer normalisation) of the node
  features gathered at the edges' sources and destinations and of the edge attributes — and the updated node features —
  the node network of the node features and of the messages summed into their destination nodes, plus the node features.
  The kernel computes the two networks tile by tile in two regions and the gathers and the sum on the host; the
  reference computes everything on the host with the first layers written as one product with a joined array. The
  gathers and the sum are the same host operations on both sides (a narrowing of the float format in front of the
  kernel's gathers is the identity), so once each side is written as the two networks of the arguments the two results
  are the same terms.
-/
import proofs.«176863_j74174085202606_2_alg».proof.Defs
import proofs.«176863_j74174085202606_2_alg».proof.Proof.Gen.Kernel.Frame
import proofs.«176863_j74174085202606_2_alg».proof.Proof.Gen.Pre_finite_inputs
import proofs.«176863_j74174085202606_2_alg».proof.Proof.KRun
import proofs.«176863_j74174085202606_2_alg».proof.Proof.HostSide
import proofs.«176863_j74174085202606_2_alg».proof.Proof.RefSide

set_option maxRecDepth 16384

noncomputable section

namespace Cert.Proof.Claims

open Idealize.ShloMosaic Idealize.ShloMosaic.TcCoe Idealize.SL.Sem
open Cert.Spec Cert.Net
open Cert.KernelIdeal.HostVal Cert.ReferenceIdeal.RefVal Cert.ReferenceIdeal.Read

/-! ## The host operations shared by the two programs -/

/-- The reference's gather at the sources is the kernel's. -/
theorem gather_src (x0 : (⟨Cert.ReferenceIdeal.S50000x64, .f32⟩ : BufTy).Contents (Elt Ideal)) (x1 : (⟨Cert.ReferenceIdeal.S2x400000, .i32⟩ : BufTy).Contents (Elt Ideal)) :
    val_main_v10 (F := Ideal) x0 x1 = rowsAt x0 (srcRow x1) := rfl

/-- The reference's gather at the destinations is the kernel's. -/
theorem gather_dst (x0 : (⟨Cert.ReferenceIdeal.S50000x64, .f32⟩ : BufTy).Contents (Elt Ideal)) (x1 : (⟨Cert.ReferenceIdeal.S2x400000, .i32⟩ : BufTy).Contents (Elt Ideal)) :
    val_main_v17 (F := Ideal) x0 x1 = rowsAt x0 (dstRow x1) := rfl

/-- The reference's sum of the messages into their destinations is the kernel's. -/
theorem sum_dst (x1 : (⟨Cert.ReferenceIdeal.S2x400000, .i32⟩ : BufTy).Contents (Elt Ideal)) (msg : (⟨Cert.ReferenceIdeal.S400000x64, .f32⟩ : BufTy).Contents (Elt Ideal)) :
    Host.scatterAdd (F := Ideal) (φ := .f32) Cert.ReferenceIdeal.scatter_S50000x64_S400000x1_S400000x64_1_0_0_1 (val_main_v57 (F := Ideal)) (val_main_v58 (F := Ideal) x1) msg
      = sumInto (dstRow x1) msg := rfl

/-! ## The kernel's run, read -/

theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v29) = updOf m c
      ∧ r.2.mem ((c.tc : Thread Cert.KernelIdeal.nD Cert.KernelIdeal.τ).loc Cert.KernelIdeal.main_v23) = msgOf m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :=
  (θ_run (Cert.KernelIdeal.defs (F := Ideal)) _ _).mono
    (fun r h c => ⟨(h c).1.trans (W4_v29 m ρ c), (h c).2.1.trans (W4_v23 m ρ c), (h c).2.2⟩)
    (Cert.KernelIdeal.Results.run_results (F := Ideal) m ρ)

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The reference's messages, of arguments that agree with the kernel's, are the kernel's. -/
theorem msg_agree (m : (ℓ : Loc Cert.KernelIdeal.nD Cert.KernelIdeal.τ Cert.KernelIdeal.sig) → Buf (Elt Ideal) ℓ) (c : Dev Cert.KernelIdeal.nD) :
    val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      = msgOf m c := by
  rw [edge_eq, gather_src, gather_dst]
  rfl

/-- The reference's updated node features, of arguments that agree with the kernel's, are the kernel's. -/
theorem upd_agree (m : (ℓ : Loc Cert.KernelIdeal.nD Cert.KernelIdeal.τ Cert.KernelIdeal.sig) → Buf (Elt Ideal) ℓ) (c : Dev Cert.KernelIdeal.nD) :
    val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      = updOf m c := by
  rw [node_eq]
  unfold val_main_v59
  rw [sum_dst, msg_agree]
  rfl

theorem algebraic : Cert.algebraic_KernelIdeal_ReferenceIdeal := by
  intro m ρ m' ρ' _ hagree
  refine ⟨fun c => updOf m c, fun c => msgOf m c, kernel_run m ρ, ?_⟩
  refine (θ_run (Cert.ReferenceIdeal.defs (F := Ideal)) _ _).mono (fun r h c => ?_) (Cert.ReferenceIdeal.Value.run (F := Ideal) m' ρ')
  obtain ⟨a0, a1, a2, a3, a4, a5, a6, a7, a8, a9, a10, a11, a12, a13, a14, a15, a16, a17, a18⟩ := hagree c
  refine ⟨(h c).1.trans ?_, (h c).2.1.trans ?_, (h c).2.2⟩
  · rw [val_main_v99_eq, a0, a1, a2, a3, a4, a5, a6, a7, a8, a9, a10, a11, a12, a13, a14, a15, a16, a17, a18]
    exact upd_agree m c
  · rw [val_main_v56_eq, a0, a1, a2, a3, a4, a5, a6, a7, a8, a9, a10]
    exact msg_agree m c

end Cert.Proof.Claims

end
-- ==== Proof.lean ====
/-
  The proof of `Cert.Claim` for one message-passing layer: a kernel that computes the edge network and the node network
  in two row-tiled regions, with the gathers and the sum of messages on the host between them, against a reference that
  computes the same layer with whole-array operations.

  The modules, in order: LibTile / LibTileMore / LibRowOps / LibTileSoftmax / LibHostLayers / LibTileLayers (row tiles
  kept by the operations of a dense network), LibSplitDense (a product with arrays joined along their columns is the
  sum of the pieces' products with the weight's row blocks), TileNet (the two networks on whole arrays and on a tile),
  RegionVal (each region's output array is its network of the arrays the region finds), KRun (the run with the two
  result buffers named), HostSide (what the regions find and leave, from the launch memory), RefSide (the reference
  regrouped as the same layers), Claims (the two sides are the same terms; the five conjuncts).
-/
import proofs.«176863_j74174085202606_2_alg».proof.Defs
import proofs.«176863_j74174085202606_2_alg».proof.Proof.Gen.Kernel
import proofs.«176863_j74174085202606_2_alg».proof.Proof.Gen.Kernel.Skeleton
import proofs.«176863_j74174085202606_2_alg».proof.Proof.Gen.Kernel.Launch
import proofs.«176863_j74174085202606_2_alg».proof.Proof.Gen.Kernel.Points
import proofs.«176863_j74174085202606_2_alg».proof.Proof.Gen.Kernel.Frame
import proofs.«176863_j74174085202606_2_alg».proof.Proof.Gen.KernelIdeal
import proofs.«176863_j74174085202606_2_alg».proof.Proof.Gen.KernelIdeal.Skeleton
import proofs.«176863_j74174085202606_2_alg».proof.Proof.Gen.KernelIdeal.Launch
import proofs.«176863_j74174085202606_2_alg».proof.Proof.Gen.KernelIdeal.Points
import proofs.«176863_j74174085202606_2_alg».proof.Proof.Gen.KernelIdeal.Frame
import proofs.«176863_j74174085202606_2_alg».proof.Proof.Gen.ReferenceIdeal
import proofs.«176863_j74174085202606_2_alg».proof.Proof.Gen.ReferenceIdeal.Run
import proofs.«176863_j74174085202606_2_alg».proof.Proof.Gen.ReferenceIdeal.Read
import proofs.«176863_j74174085202606_2_alg».proof.Proof.Gen.Pre_finite_inputs
import proofs.«176863_j74174085202606_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
